-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x64x256 : Shape := ⟨4, ![4, 512, 64, 256]⟩
abbrev S512x512 : Shape := ⟨2, ![512, 512]⟩
abbrev S256x256 : Shape := ⟨2, ![256, 256]⟩
abbrev S_ : Shape := ⟨0, ![]⟩

class Facts : Prop where
  bcast_S_S4x512x64x256 : S_.BroadcastsInDim S4x512x64x256 (![] : Fin 0 → Fin S4x512x64x256.rank)
  reducesTo_S4x512x64x256_S_d0_1_2_3 : S4x512x64x256.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4x512x64x256 .f32) (main_arg1 : FVec F S512x512 .f32) (main_arg2 : FVec F S256x256 .f32) : IVec S_ 1 :=
  let main_v0 : FVec F S4x512x64x256 .f32 := Host.absf main_arg0
  let main_cst : FVec F S_ .f32 := constant S_ .f32 0x7F800000#32
  let main_v1 : FVec F S4x512x64x256 .f32 := broadcastInDim S4x512x64x256 ![] bcast_S_S4x512x64x256 main_cst
  let main_v2 : IVec S4x512x64x256 1 := cmpf .olt main_v0 main_v1
  let main_c : IVec S_ 1 := constantI S_ 1 1#1
  let main_v3 : IVec S_ 1 := (fun x v => Host.reduce IntOp.andi x v reducesTo_S4x512x64x256_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4x512x64x256 : Shape := ⟨4, ![4, 512, 64, 256]⟩
abbrev S512x512 : Shape := ⟨2, ![512, 512]⟩
abbrev S256x256 : Shape := ⟨2, ![256, 256]⟩
abbrev S_ : Shape := ⟨0, ![]⟩
abbrev S1x512x8x256 : Shape := ⟨4, ![1, 512, 8, 256]⟩
abbrev S512x8x256 : Shape := ⟨3, ![512, 8, 256]⟩
abbrev S8x512x256 : Shape := ⟨3, ![8, 512, 256]⟩
abbrev S1x128x8x256 : Shape := ⟨4, ![1, 128, 8, 256]⟩
abbrev S128x8x256 : Shape := ⟨3, ![128, 8, 256]⟩
abbrev S8x128x256 : Shape := ⟨3, ![8, 128, 256]⟩
abbrev S8x128x512 : Shape := ⟨3, ![8, 128, 512]⟩
abbrev S8x128 : Shape := ⟨2, ![8, 128]⟩
abbrev S8x128x1 : Shape := ⟨3, ![8, 128, 1]⟩
abbrev S128x512 : Shape := ⟨2, ![128, 512]⟩
abbrev S1x128x512 : Shape := ⟨3, ![1, 128, 512]⟩
abbrev S1024x256 : Shape := ⟨2, ![1024, 256]⟩

abbrev nBuf : Space → Nat
  | .hbm => 8
  | .vmem => 6
  | .smem => 0
  | _ => 0

abbrev bufTy : (tb : Table) → Fin (tcTables nBuf tb) → BufTy
  | .hbm, ⟨0, _⟩ => ⟨S4x512x64x256, .f32⟩
  | .hbm, ⟨1, _⟩ => ⟨S512x512, .f32⟩
  | .hbm, ⟨2, _⟩ => ⟨S256x256, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S256x256, .f32⟩
  | .hbm, ⟨7, _⟩ => ⟨S4x512x64x256, .f32⟩
  | .local _ .vmem, ⟨0, _⟩ => ⟨S1x512x8x256, .f32⟩
  | .local _ .vmem, ⟨1, _⟩ => ⟨S1x512x8x256, .f32⟩
  | .local _ .vmem, ⟨2, _⟩ => ⟨S512x512, .f32⟩
  | .local _ .vmem, ⟨3, _⟩ => ⟨S256x256, .f32⟩
  | .local _ .vmem, ⟨4, _⟩ => ⟨S1x512x8x256, .f32⟩
  | .local _ .vmem, ⟨5, _⟩ => ⟨S1x512x8x256, .f32⟩
  | _, _ => ⟨S4x512x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c128_i32 : BitVec 32 := 128#32
  let v7 : BitVec 32 := Scalar.muli c0_i32 c128_i32
  v7
def k0_off1 (c0_i32 : BitVec 32) : Fin 4 → Nat :=
  let c0_5 : Index := 0#32
  let c128_i32 : BitVec 32 := 128#32
  let v7 : BitVec 32 := Scalar.muli c0_i32 c128_i32
  let v8 : BitVec 32 := v7
  let v9 : Index := Scalar.indexCast v8
  let c0_6 : Index := 0#32
  let c0_7 : Index := 0#32
  ![0, v9.toNat, 0, 0]
def k0_off2 (c0_i32 : BitVec 32) : Fin 2 → Nat :=
  let c128_i32 : BitVec 32 := 128#32
  let v7 : BitVec 32 := Scalar.muli c0_i32 c128_i32
  let v8 : BitVec 32 := v7
  let v28 : Index := Scalar.indexCast v8
  let c0_12 : Index := 0#32
  ![v28.toNat, 0]
def k0_mult2 : BitVec 32 :=
  let c1_i32 : BitVec 32 := 1#32
  let c128_i32_19 : BitVec 32 := 128#32
  let v48 : BitVec 32 := Scalar.muli c1_i32 c128_i32_19
  v48
def k0_mult3 : BitVec 32 :=
  let c2_i32 : BitVec 32 := 2#32
  let c128_i32_35 : BitVec 32 := 128#32
  let v89 : BitVec 32 := Scalar.muli c2_i32 c128_i32_35
  v89
def k0_mult4 : BitVec 32 :=
  let c3_i32 : BitVec 32 := 3#32
  let c128_i32_51 : BitVec 32 := 128#32
  let v130 : BitVec 32 := Scalar.muli c3_i32 c128_i32_51
  v130
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S512x512 : S_.BroadcastsInDim S512x512 (![] : Fin 0 → Fin S512x512.rank)
  transposes_S256x256_S256x256_1_0 : S256x256.Transposes [1, 0] S256x256
  inb_S1x512x8x256_S1x512x8x256_0_0_0_0 : ∀ a, (![0, 0, 0, 0] : Fin 4 → Nat) a + S1x512x8x256.size a ≤ S1x512x8x256.size a
  h_S1x512x8x256 : 0 < S1x512x8x256.numel
  shapeCasts_S1x512x8x256_S512x8x256 : S1x512x8x256.ShapeCasts S512x8x256
  transposes_S512x8x256_p1_0_2_S8x512x256 : S512x8x256.Transposes [1, 0, 2] S8x512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S1x128x8x256 : 0 < S1x128x8x256.numel
  shapeCasts_S1x128x8x256_S128x8x256 : S1x128x8x256.ShapeCasts S128x8x256
  transposes_S128x8x256_p1_0_2_S8x128x256 : S128x8x256.Transposes [1, 0, 2] S8x128x256
  reduces_S8x128x512_S8x128 : S8x128x512.Reduces [2] S8x128
  shapeCasts_S8x128_S8x128x1 : S8x128.ShapeCasts S8x128x1
  broadcasts_S8x128x1_S8x128x512 : S8x128x1.Broadcasts S8x128x512
  h_S128x512 : 0 < S128x512.numel
  shapeCasts_S128x512_S128x512 : S128x512.ShapeCasts S128x512
  shapeCasts_S128x512_S1x128x512 : S128x512.ShapeCasts S1x128x512
  shapeCasts_S1x128x512_S1x128x512 : S1x128x512.ShapeCasts S1x128x512
  broadcasts_S1x128x512_S8x128x512 : S1x128x512.Broadcasts S8x128x512
  shapeCasts_S8x128x256_S1024x256 : S8x128x256.ShapeCasts S1024x256
  shapeCasts_S1024x256_S8x128x256 : S1024x256.ShapeCasts S8x128x256
  transposes_S8x128x256_p1_0_2_S128x8x256 : S8x128x256.Transposes [1, 0, 2] S128x8x256
  shapeCasts_S128x8x256_S1x128x8x256 : S128x8x256.ShapeCasts S1x128x8x256
  dot_S8x128x256_S8x512x256_S8x128x512_2_2_1_1_0_0_wf : DotDims.WF S8x128x256 S8x512x256 S8x128x512 [2] [2] [1] [1] [0] [0]
  dot_S8x128x512_S8x512x256_S8x128x256_2_1_1_2_0_0_wf : DotDims.WF S8x128x512 S8x512x256 S8x128x256 [2] [1] [1] [2] [0] [0]
  dot_S1024x256_S256x256_S1024x256_1_0_0_1_n_n_wf : DotDims.WF S1024x256 S256x256 S1024x256 [1] [0] [0] [1] [] []
  hrank0 : 0 < grid0.rank
  k0_mult1_dvd : 128 ∣ k0_mult1.toNat
  k0_off1_inb : ∀ (r : Fin 4), ∀ a, (k0_off1 (BitVec.ofNat 32 r.val)) a + S1x128x8x256.size a ≤ S1x512x8x256.size a
  k0_off2_inb : ∀ (r : Fin 4), ∀ a, (k0_off2 (BitVec.ofNat 32 r.val)) a + S128x512.size a ≤ S512x512.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x8x256.size a ≤ S4x512x64x256.size a
  hwx0_0 : ∀ i : grid0.Coords, EltTy.bits .f32 = 32 ∨ (Rect.block (s := S4x512x64x256) S1x512x8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x8x256.size a ≤ S4x512x64x256.size a
  hwx0_3 : ∀ i : grid0.Coords, EltTy.bits .f32 = 32 ∨ (Rect.block (s := S4x512x64x256) S1x512x8x256.size (cc0_transform_3 i) (hinb0_3 i)).WholeWords (EltTy.packing .f32)

variable [Facts₀]

def dot_S8x128x256_S8x512x256_S8x128x512_2_2_1_1_0_0 : DotDims S8x128x256 S8x512x256 S8x128x512 where
  lhsContracting := [2]
  rhsContracting := [2]
  lhsNonContracting := [1]
  rhsNonContracting := [1]
  lhsBatch := [0]
  rhsBatch := [0]
  wf := dot_S8x128x256_S8x512x256_S8x128x512_2_2_1_1_0_0_wf
def dot_S8x128x512_S8x512x256_S8x128x256_2_1_1_2_0_0 : DotDims S8x128x512 S8x512x256 S8x128x256 where
  lhsContracting := [2]
  rhsContracting := [1]
  lhsNonContracting := [1]
  rhsNonContracting := [2]
  lhsBatch := [0]
  rhsBatch := [0]
  wf := dot_S8x128x512_S8x512x256_S8x128x256_2_1_1_2_0_0_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1x512x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x512x64x256 : Shape := ⟨4, ![4, 512, 64, 256]⟩
abbrev S512x512 : Shape := ⟨2, ![512, 512]⟩
abbrev S256x256 : Shape := ⟨2, ![256, 256]⟩
abbrev S4x64x512x256 : Shape := ⟨4, ![4, 64, 512, 256]⟩
abbrev S256x512x256 : Shape := ⟨3, ![256, 512, 256]⟩
abbrev S256x512x512 : Shape := ⟨3, ![256, 512, 512]⟩
abbrev S_ : Shape := ⟨0, ![]⟩
abbrev S256x512 : Shape := ⟨2, ![256, 512]⟩
abbrev S256x512x1 : Shape := ⟨3, ![256, 512, 1]⟩
abbrev S1x512x512 : Shape := ⟨3, ![1, 512, 512]⟩

abbrev nBuf : Space → Nat
  | .hbm => 36
  | .vmem => 0
  | .smem => 0
  | _ => 0

abbrev bufTy : (tb : Table) → Fin (tcTables nBuf tb) → BufTy
  | .hbm, ⟨0, _⟩ => ⟨S4x512x64x256, .f32⟩
  | .hbm, ⟨1, _⟩ => ⟨S512x512, .f32⟩
  | .hbm, ⟨2, _⟩ => ⟨S256x256, .f32⟩
  | .hbm, ⟨3, _⟩ => ⟨S4x64x512x256, .f32⟩
  | .hbm, ⟨4, _⟩ => ⟨S256x512x256, .f32⟩
  | .hbm, ⟨5, _⟩ => ⟨S256x512x512, .f32⟩
  | .hbm, ⟨6, _⟩ => ⟨S_, .f32⟩
  | .hbm, ⟨7, _⟩ => ⟨S256x512x512, .f32⟩
  | .hbm, ⟨8, _⟩ => ⟨S256x512x512, .f32⟩
  | .hbm, ⟨9, _⟩ => ⟨S_, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512x1, .f32⟩
  | .hbm, ⟨15, _⟩ => ⟨S256x512x512, .f32⟩
  | .hbm, ⟨16, _⟩ => ⟨S256x512x512, .f32⟩
  | .hbm, ⟨17, _⟩ => ⟨S256x512x512, .f32⟩
  | .hbm, ⟨18, _⟩ => ⟨S_, .f32⟩
  | .hbm, ⟨19, _⟩ => ⟨S256x512, .f32⟩
  | .hbm, ⟨20, _⟩ => ⟨S256x512x1, .f32⟩
  | .hbm, ⟨21, _⟩ => ⟨S256x512x512, .f32⟩
  | .hbm, ⟨22, _⟩ => ⟨S256x512x512, .f32⟩
  | .hbm, ⟨23, _⟩ => ⟨S_, .f32⟩
  | .hbm, ⟨24, _⟩ => ⟨S256x512x512, .f32⟩
  | .hbm, ⟨25, _⟩ => ⟨S256x512x512, .f32⟩
  | .hbm, ⟨26, _⟩ => ⟨S1x512x512, .f32⟩
  | .hbm, ⟨27, _⟩ => ⟨S256x512x512, .f32⟩
  | .hbm, ⟨28, _⟩ => ⟨S256x512x512, .f32⟩
  | .hbm, ⟨29, _⟩ => ⟨S256x512x256, .f32⟩
  | .hbm, ⟨30, _⟩ => ⟨S256x512x256, .f32⟩
  | .hbm, ⟨31, _⟩ => ⟨S4x64x512x256, .f32⟩
  | .hbm, ⟨32, _⟩ => ⟨S4x512x64x256, .f32⟩
  | .hbm, ⟨33, _⟩ => ⟨S_, .f32⟩
  | .hbm, ⟨34, _⟩ => ⟨S4x512x64x256, .f32⟩
  | .hbm, ⟨35, _⟩ => ⟨S4x512x64x256, .f32⟩
  | _, _ => ⟨S4x512x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  transposes_S4x512x64x256_S4x64x512x256_0_2_1_3 : S4x512x64x256.Transposes [0, 2, 1, 3] S4x64x512x256
  shapeCasts_S4x64x512x256_S256x512x256 : S4x64x512x256.ShapeCasts S256x512x256
  bcast_S_S256x512x512 : S_.BroadcastsInDim S256x512x512 (![] : Fin 0 → Fin S256x512x512.rank)
  reducesTo_S256x512x512_S256x512_d2 : S256x512x512.ReducesTo [2] S256x512
  h_S_ : 0 < S_.numel
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256x512x1_S256x512x512_0_1_2 : S256x512x1.BroadcastsInDim S256x512x512 (![0, 1, 2] : Fin 3 → Fin S256x512x512.rank)
  bcast_S512x512_S1x512x512_1_2 : S512x512.BroadcastsInDim S1x512x512 (![1, 2] : Fin 2 → Fin S1x512x512.rank)
  bcast_S1x512x512_S256x512x512_0_1_2 : S1x512x512.BroadcastsInDim S256x512x512 (![0, 1, 2] : Fin 3 → Fin S256x512x512.rank)
  shapeCasts_S256x512x256_S4x64x512x256 : S256x512x256.ShapeCasts S4x64x512x256
  transposes_S4x64x512x256_S4x512x64x256_0_2_1_3 : S4x64x512x256.Transposes [0, 2, 1, 3] S4x512x64x256
  bcast_S_S4x512x64x256 : S_.BroadcastsInDim S4x512x64x256 (![] : Fin 0 → Fin S4x512x64x256.rank)
  dot_S256x512x256_S256x512x256_S256x512x512_2_2_1_1_0_0_wf : DotDims.WF S256x512x256 S256x512x256 S256x512x512 [2] [2] [1] [1] [0] [0]
  dot_S256x512x512_S256x512x256_S256x512x256_2_1_1_2_0_0_wf : DotDims.WF S256x512x512 S256x512x256 S256x512x256 [2] [1] [1] [2] [0] [0]
  dot_S256x512x256_S256x256_S256x512x256_2_1_01_0_n_n_wf : DotDims.WF S256x512x256 S256x256 S256x512x256 [2] [1] [0, 1] [0] [] []

variable [Facts₀]

def dot_S256x512x256_S256x512x256_S256x512x512_2_2_1_1_0_0 : DotDims S256x512x256 S256x512x256 S256x512x512 where
  lhsContracting := [2]
  rhsContracting := [2]
  lhsNonContracting := [1]
  rhsNonContracting := [1]
  lhsBatch := [0]
  rhsBatch := [0]
  wf := dot_S256x512x256_S256x512x256_S256x512x512_2_2_1_1_0_0_wf
def dot_S256x512x512_S256x512x256_S256x512x256_2_1_1_2_0_0 : DotDims S256x512x512 S256x512x256 S256x512x256 where
  lhsContracting := [2]
  rhsContracting := [1]
  lhsNonContracting := [1]
  rhsNonContracting := [2]
  lhsBatch := [0]
  rhsBatch := [0]
  wf := dot_S256x512x512_S256x512x256_S256x512x256_2_1_1_2_0_0_wf
def dot_S256x512x256_S256x256_S256x512x256_2_1_01_0_n_n : DotDims S256x512x256 S256x256 S256x512x256 where
  lhsContracting := [2]
  rhsContracting := [1]
  lhsNonContracting := [0, 1]
  rhsNonContracting := [0]
  lhsBatch := []
  rhsBatch := []
  wf := dot_S256x512x256_S256x256_S256x512x256_2_1_01_0_n_n_wf

class Facts : Prop extends Facts₀ where

variable [Facts]
-- ==== Proof.LibTileSum.lean ====
/-
  Sums cut into equal tiles, and a nonnegative real factor moved across a finite sum of extended reals.

  * `sum_mul_coe`: on the extended reals a finite sum times a nonnegative REAL is the sum of the products. (Multiplying by
    such a factor is additive even where the summands are infinite of both signs: `(⊤ + ⊥) * c = ⊥ = ⊤ * c + ⊥ * c`.)
  * `sum_tiles`: a sequence of length `N` laid out in `T` tiles of `B` places each (`N ≤ T * B`), the places past `N`
    reading zero, sums tile by tile to the plain sum of the sequence — in any additive commutative monoid.
  * `pow_two_coe`: the real power with exponent `2` of a real base is the product of the base with itself.
-/
import Idealize.ShloMosaic.PureOps.Ideal
import Mathlib.Algebra.BigOperators.Fin
import Mathlib.Logic.Equiv.Fin.Basic

noncomputable section

namespace Cert.Lib.TileSum

open Idealize.ShloMosaic

/-- A finite sum of extended reals times a nonnegative real is the sum of the products. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The places of a tiled sequence past its length read zero, so the tiles' sums add up to the sequence's sum. -/
theorem sum_tiles {M : Type*} [AddCommMonoid M] (T B N : ℕ) (hN : N ≤ T * B) (g : ℕ → M) :
    ∑ t : Fin T, ∑ r : Fin B, (if t.val * B + r.val < N then g (t.val * B + r.val) else 0)
      = ∑ n : Fin N, g n.val := by
  have h1 : ∑ t : Fin T, ∑ r : Fin B, (if t.val * B + r.val < N then g (t.val * B + r.val) else 0)
      = ∑ p : Fin T × Fin B, (fun n : Fin (T * B) => if n.val < N then g n.val else 0) (finProdFinEquiv p) := by
    rw [Fintype.sum_prod_type]
    refine Finset.sum_congr rfl fun t _ => Finset.sum_congr rfl fun r _ => ?_
    have e : (finProdFinEquiv (t, r)).val = t.val * B + r.val := by
      show r.val + B * t.val = _
      rw [Nat.mul_comm, Nat.add_comm]
    simp only [e]
  rw [h1, Equiv.sum_comp finProdFinEquiv (fun n : Fin (T * B) => if n.val < N then g n.val else 0),
    Fin.sum_univ_eq_sum_range (fun n => if n < N then g n else 0) (T * B),
    Fin.sum_univ_eq_sum_range (fun n => g n) N, ← Finset.sum_filter]
  refine Finset.sum_congr ?_ fun _ _ => rfl
  ext n
  simp only [Finset.mem_filter, Finset.mem_range]
  omega

/-- The real power of a real base with exponent `2`, read on the extended reals, is the base times itself. -/
theorem pow_two_coe (y : ℝ) : Ideal.pow (y : EReal) ((2 : ℝ) : EReal) = (y : EReal) * (y : EReal) := by
  rw [Ideal.pow_coe_coe, ← EReal.coe_mul]
  congr 1
  show y ^ (2 : ℝ) = y * y
  rw [Real.rpow_two, sq]

end Cert.Lib.TileSum

end
-- ==== Proof.Spec.lean ====
/-
  One output entry as a function of four rows.

  Entry (b, n, T, o) of the result depends on the query row q = x[b, n, T, ·], on the 512 key rows
  k m = x[b, m, T, ·], on the adjacency row a = adj[n, ·] and on the weight row w = theta_w[o, ·]:

      relu ( Σ_f ( Σ_m a m · softmax_m(q·k m / 16) / 16 · k m f ) · w f ).

  The two programs arrange this differently. The kernel scales the query before the scores' contraction,
  multiplies each weight by the reciprocal of the weights' sum, and receives the adjacency row already
  scaled by 1/16 (`kerRow`); the reference scales the contracted score, divides each weight by the sum,
  scales the quotient, and starts its maximum and its sum from explicit initial values (`refRow`).
  `kerRow_eq_refRow`: for real (finite) query and key rows the two are the same extended real.
  The scale 1/16 is a nonnegative real, so it moves across the contraction at any summands; the reciprocal
  form of the quotient needs the sum of the weights to be nonzero, which holds because the weight of a
  key that attains the maximal score is exp 0 = 1 and every weight is nonnegative.
-/
import Idealize.ShloMosaic.PureOps.Ideal
import Idealize.ShloMosaic.PureOps.Ideal.Laws
import proofs.«116749_j1425929142799_2_alg».proof.Proof.LibTileSum

noncomputable section

namespace Cert.Spec

open Idealize.ShloMosaic

/-- The scale 2⁻⁴ = 1/√256, as both programs spell it. -/
abbrev cS : EReal := Ideal.ofBits .f32 0x3D800000#32
/-- −∞, where both maxima start. -/
abbrev nInf : EReal := Ideal.ofBits .f32 0xFF800000#32
/-- The zero both programs write. -/
abbrev zeroW : EReal := Ideal.ofBits .f32 0x00000000#32
/-- The one whose quotient by the weights' sum the kernel takes. -/
abbrev oneW : EReal := Ideal.ofBits .f32 0x3F800000#32

theorem cS_eq : cS = (((1 / 16 : ℝ)) : EReal) := by
  simp [cS, Ideal.ofBits, Ideal.ieee, -EReal.coe_mul]; norm_num

theorem nInf_eq : nInf = ⊥ := by
  simp [nInf, Ideal.ofBits, Ideal.ieee]

theorem zeroW_eq : zeroW = 0 := Ideal.ofBits_zero_f32

theorem oneW_eq : oneW = 1 := by
  simp [oneW, Ideal.ofBits, Ideal.ieee, -EReal.coe_mul]; norm_num

/-! ## The kernel's arrangement -/

/-- The score of key `m`: the scaled query against the key. -/
def kerScore (q : Fin 256 → EReal) (k : Fin 512 → Fin 256 → EReal) (m : Fin 512) : EReal :=
  ∑ f : Fin 256, (q f * cS) * k m f

/-- The unnormalised weight of key `m`. -/
def kerW (q : Fin 256 → EReal) (k : Fin 512 → Fin 256 → EReal) (m : Fin 512) : EReal :=
  Ideal.exp (kerScore q k m - (Finset.univ : Finset (Fin 512)).fold max nInf (kerScore q k))

/-- The entry, in the kernel's arrangement (`a` is the adjacency row it is handed: already scaled). -/
def kerRow (q : Fin 256 → EReal) (k : Fin 512 → Fin 256 → EReal) (a : Fin 512 → EReal) (w : Fin 256 → EReal) : EReal :=
  max (∑ f : Fin 256, (∑ m : Fin 512, (a m * (kerW q k m * Ideal.div oneW (∑ m' : Fin 512, kerW q k m'))) * k m f) * w f) zeroW

/-! ## The reference's arrangement -/

def refScore (q : Fin 256 → EReal) (k : Fin 512 → Fin 256 → EReal) (m : Fin 512) : EReal :=
  (∑ f : Fin 256, q f * k m f) * cS

def refW (q : Fin 256 → EReal) (k : Fin 512 → Fin 256 → EReal) (m : Fin 512) : EReal :=
  Ideal.exp (refScore q k m - max nInf ((Finset.univ : Finset (Fin 512)).fold max nInf (refScore q k)))

def refRow (q : Fin 256 → EReal) (k : Fin 512 → Fin 256 → EReal) (a : Fin 512 → EReal) (w : Fin 256 → EReal) : EReal :=
  max (∑ f : Fin 256, (∑ m : Fin 512,
    (a m * (Ideal.div (refW q k m) (zeroW + ∑ m' : Fin 512, refW q k m') * cS)) * k m f) * w f) zeroW

/-! ## They agree on real rows -/

/-- The scale moves across the contraction (it is a nonnegative real: no finiteness of the summands is used). -/
theorem kerScore_eq_refScore (q : Fin 256 → EReal) (k : Fin 512 → Fin 256 → EReal) (m : Fin 512) :
    kerScore q k m = refScore q k m := by
  unfold kerScore refScore
  rw [cS_eq, Cert.Lib.TileSum.sum_mul_coe _ _ _ (by norm_num)]
  exact Finset.sum_congr rfl fun f _ => mul_right_comm _ _ _

theorem max_nInf_fold (g : Fin 512 → EReal) :
    max nInf ((Finset.univ : Finset (Fin 512)).fold max nInf g) = (Finset.univ : Finset (Fin 512)).fold max nInf g :=
  max_eq_right ((Finset.le_fold_max nInf).mpr (Or.inl le_rfl))

theorem kerW_eq_refW (q : Fin 256 → EReal) (k : Fin 512 → Fin 256 → EReal) (m : Fin 512) :
    kerW q k m = refW q k m := by
  unfold kerW refW
  rw [max_nInf_fold, show kerScore q k = refScore q k from funext (kerScore_eq_refScore q k)]

theorem exp_nonneg (x : EReal) : 0 ≤ Ideal.exp x := by
  induction x using EReal.rec with
  | bot => exact le_of_eq Ideal.exp_bot.symm
  | coe r => rw [Ideal.exp_coe]; exact EReal.coe_nonneg.mpr (Real.exp_pos r).le
  | top => rw [Ideal.exp_top]; exact le_top

/-- A finite sum of reals, read on the extended reals. -/
theorem coe_sum {ι : Type*} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- On real rows every score is a real. -/
theorem kerScore_real (q : Fin 256 → EReal) (k : Fin 512 → Fin 256 → EReal)
    (hq : ∀ f, ∃ r : ℝ, q f = r) (hk : ∀ m f, ∃ r : ℝ, k m f = r) (m : Fin 512) : ∃ r : ℝ, kerScore q k m = r := by
  choose qr hqr using hq
  choose kr hkr using hk
  refine ⟨∑ f : Fin 256, (qr f * (1 / 16)) * kr m f, ?_⟩
  unfold kerScore
  rw [← coe_sum]
  refine Finset.sum_congr rfl fun f _ => ?_
  rw [hqr f, hkr m f, cS_eq, ← EReal.coe_mul, ← EReal.coe_mul]

/-- The weights of a family of real scores do not sum to zero: a key of maximal score has weight exp 0. -/
theorem sum_kerW_ne_zero (q : Fin 256 → EReal) (k : Fin 512 → Fin 256 → EReal)
    (hq : ∀ f, ∃ r : ℝ, q f = r) (hk : ∀ m f, ∃ r : ℝ, k m f = r) : (∑ m' : Fin 512, kerW q k m') ≠ 0 := by
  choose r hr using kerScore_real q k hq hk
  obtain ⟨m0, -, hm0⟩ := Finset.exists_max_image (Finset.univ : Finset (Fin 512)) r ⟨0, Finset.mem_univ _⟩
  have hM : (Finset.univ : Finset (Fin 512)).fold max nInf (kerScore q k) = ((r m0 : ℝ) : EReal) := by
    apply le_antisymm
    · refine (Finset.fold_max_le _).mpr ⟨by rw [nInf_eq]; exact bot_le, fun m _ => ?_⟩
      rw [hr m]; exact EReal.coe_le_coe_iff.mpr (hm0 m (Finset.mem_univ m))
    · exact (Finset.le_fold_max _).mpr (Or.inr ⟨m0, Finset.mem_univ _, le_of_eq (hr m0).symm⟩)
  have hpos : 0 < kerW q k m0 := by
    unfold kerW
    rw [hM, hr m0, ← EReal.coe_sub, Ideal.exp_coe]
    exact EReal.coe_pos.mpr (Real.exp_pos _)
  have hle : kerW q k m0 ≤ ∑ m' : Fin 512, kerW q k m' :=
    Finset.single_le_sum (f := kerW q k) (fun i _ => exp_nonneg _) (Finset.mem_univ m0)
  exact (lt_of_lt_of_le hpos hle).ne'

theorem kerRow_eq_refRow (q : Fin 256 → EReal) (k : Fin 512 → Fin 256 → EReal) (a : Fin 512 → EReal) (w : Fin 256 → EReal)
    (hq : ∀ f, ∃ r : ℝ, q f = r) (hk : ∀ m f, ∃ r : ℝ, k m f = r) :
    kerRow q k (fun m => a m * cS) w = refRow q k a w := by
  have hS := sum_kerW_ne_zero q k hq hk
  unfold kerRow refRow
  rw [zeroW_eq, zero_add, show refW q k = kerW q k from funext fun m => (kerW_eq_refW q k m).symm]
  refine congrArg (max · 0) (Finset.sum_congr rfl fun f _ => congrArg (· * w f) (Finset.sum_congr rfl fun m _ =>
    congrArg (· * k m f) ?_))
  unfold Ideal.div
  rw [if_neg hS, if_neg hS, oneW_eq, one_mul]
  simp only [mul_assoc, mul_comm, mul_left_comm]

end Cert.Spec

end
-- ==== Proof.Tile.lean ====
/-
  One query tile of the kernel's body, read at an index.

  The body handles the 512 query rows of a block in four tiles of 128. For a tile it is handed the whole
  block `v0` of x (shape [1, 512, 8, 256]: node, time step, feature), the tile's 128 query rows `vq`
  ([1, 128, 8, 256]), the matching 128 rows `va` of the scaled adjacency ([128, 512]) and the transposed
  weight matrix `v4` ([256, 256]: input feature, output feature), and stores a [1, 128, 8, 256] value.
  `tile` is that value as one term; `tile_apply`: its entry (0, q, τ, o) is `Spec.kerRow` of the query row
  vq[0, q, τ, ·], the key rows v0[0, m, τ, ·], the adjacency row va[q, ·] and the weight column v4[·, o].
  Nothing here is algebra: every layout operation is read at an index, the three matrix products and the
  two row reductions as sums and a fold over the contracted coordinate.
-/
import proofs.«116749_j1425929142799_2_alg».proof.Proof.Gen.KernelIdeal.Skeleton
import proofs.«116749_j1425929142799_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Tile

open Idealize.ShloMosaic Idealize.ShloMosaic.ValueIdx Cert.KernelIdeal Cert.KernelIdeal.Gen

/-! ## Layout steps at an index -/

section Layout
variable {α : Type}

/-- [1, n, 8, 256] → [n, 8, 256] → [8, n, 256]: entry (τ, r, f) is the operand's (0, r, τ, f). -/
theorem rows_apply {n : ℕ} (x : (⟨4, ![1, n, 8, 256]⟩ : Shape).Idx → α)
    (hc : (⟨4, ![1, n, 8, 256]⟩ : Shape).ShapeCasts ⟨3, ![n, 8, 256]⟩)
    (ht : (⟨3, ![n, 8, 256]⟩ : Shape).Transposes [1, 0, 2] ⟨3, ![8, n, 256]⟩) (τ : Fin 8) (r : Fin n) (f : Fin 256) :
    transpose ⟨3, ![8, n, 256]⟩ [1, 0, 2] (shapeCast ⟨3, ![n, 8, 256]⟩ x hc) ht (ix3 τ r f) = x (ix4 (0 : Fin 1) r τ f) :=
  (transpose_apply _ _ ht (ix3 τ r f) (ix3 r τ f) fun c => match c with
    | ⟨0, _⟩ => rfl | ⟨1, _⟩ => rfl | ⟨2, _⟩ => rfl).trans (shapeCast_1abc_abc_apply x hc r τ f)

/-- A per-(τ, q) statistic kept as a column [8, 128, 1]: entry (τ, q, 0) is the statistic at (τ, q). -/
theorem column_apply (x : S8x128.Idx → α) (hc : S8x128.ShapeCasts S8x128x1) (τ : Fin 8) (q : Fin 128) :
    shapeCast S8x128x1 x hc (ix3 τ q (0 : Fin 1)) = x (ix2 τ q) :=
  shapeCast_apply x hc _ _ (by
    rw [Shape.rowMajor_val_two, Shape.rowMajor_val_three]
    show τ.val * 128 + q.val = (τ.val * 128 + q.val) * 1 + 0
    omega)

/-- A column [8, 128, 1] spread over the 512 lanes: entry (τ, q, m) is the column's (τ, q, 0). -/
theorem spread_apply (y : S8x128x1.Idx → α) (hb : S8x128x1.Broadcasts S8x128x512) (τ : Fin 8) (q : Fin 128) (m : Fin 512) :
    broadcastTo S8x128x512 y hb (ix3 τ q m) = y (ix3 τ q (0 : Fin 1)) :=
  broadcastTo_apply y hb (ix3 τ q m) (ix3 τ q (0 : Fin 1)) fun a => match a with
    | ⟨0, _⟩ => rfl | ⟨1, _⟩ => rfl | ⟨2, _⟩ => rfl

/-- The adjacency rows [128, 512] given a leading unit axis and spread over the 8 time steps: entry (τ, q, m) is (q, m). -/
theorem adj_apply (va : S128x512.Idx → α) (h0 : S128x512.ShapeCasts S128x512) (h1 : S128x512.ShapeCasts S1x128x512)
    (h2 : S1x128x512.ShapeCasts S1x128x512) (hb : S1x128x512.Broadcasts S8x128x512) (τ : Fin 8) (q : Fin 128) (m : Fin 512) :
    broadcastTo S8x128x512 (shapeCast S1x128x512 (shapeCast S1x128x512 (shapeCast S128x512 va h0) h1) h2) hb (ix3 τ q m)
      = va (ix2 q m) := by
  rw [shapeCast_self _ h2, shapeCast_self _ h0]
  exact (broadcastTo_apply _ hb (ix3 τ q m) (ix3 (0 : Fin 1) q m) fun a => match a with
    | ⟨0, _⟩ => rfl | ⟨1, _⟩ => rfl | ⟨2, _⟩ => rfl).trans (shapeCast_ab_1ab_apply va h1 0 q m)

/-- [8, 128, 256] flattened to [1024, 256]: row τ·128 + q is (τ, q). -/
theorem flat_apply (x : S8x128x256.Idx → α) (hc : S8x128x256.ShapeCasts S1024x256) (τ : Fin 8) (q : Fin 128) (f : Fin 256)
    (hr : τ.val * 128 + q.val < 1024) :
    shapeCast S1024x256 x hc (ix2 (⟨τ.val * 128 + q.val, hr⟩ : Fin 1024) f) = x (ix3 τ q f) :=
  shapeCast_apply x hc _ _ (by
    rw [Shape.rowMajor_val_two, Shape.rowMajor_val_three]
    rfl)

/-- … and back. -/
theorem unflat_apply (x : S1024x256.Idx → α) (hc : S1024x256.ShapeCasts S8x128x256) (τ : Fin 8) (q : Fin 128) (f : Fin 256)
    (hr : τ.val * 128 + q.val < 1024) :
    shapeCast S8x128x256 x hc (ix3 τ q f) = x (ix2 (⟨τ.val * 128 + q.val, hr⟩ : Fin 1024) f) :=
  shapeCast_apply x hc _ _ (by
    rw [Shape.rowMajor_val_two, Shape.rowMajor_val_three]
    rfl)

/-- The stored value's layout: [8, 128, 256] → [128, 8, 256] → [1, 128, 8, 256]; entry (0, q, τ, o) is (τ, q, o). -/
theorem store_apply (x : S8x128x256.Idx → α) (ht : S8x128x256.Transposes [1, 0, 2] S128x8x256)
    (hc : S128x8x256.ShapeCasts S1x128x8x256) (q : Fin 128) (τ : Fin 8) (o : Fin 256) :
    shapeCast S1x128x8x256 (transpose S128x8x256 [1, 0, 2] x ht) hc (ix4 (0 : Fin 1) q τ o) = x (ix3 τ q o) :=
  (shapeCast_abc_1abc_apply _ hc 0 q τ o).trans (transpose_apply _ x ht (ix3 q τ o) (ix3 τ q o) fun c => match c with
    | ⟨0, _⟩ => rfl | ⟨1, _⟩ => rfl | ⟨2, _⟩ => rfl)

end Layout

/-! ## The three matrix products at an index -/

section Dots

local notation "D1" => dot_S8x128x256_S8x512x256_S8x128x512_2_2_1_1_0_0
local notation "D2" => dot_S8x128x512_S8x512x256_S8x128x256_2_1_1_2_0_0
local notation "D3" => dot_S1024x256_S256x256_S1024x256_1_0_0_1_n_n

/-! The operand indices of each product, coordinate by coordinate. -/

theorem d1_l0 (i : S8x128x512.Idx) (c : (D1).contr.Idx) : ((D1).lhsIdx i c 0).val = (i 0).val := by
  unfold DotDims.lhsIdx
  rw [dif_pos (show (0 : Fin S8x128x256.rank) ∈ (D1).lhsBatch by decide)]
  rfl
theorem d1_l1 (i : S8x128x512.Idx) (c : (D1).contr.Idx) : ((D1).lhsIdx i c 1).val = (i 1).val := by
  unfold DotDims.lhsIdx
  rw [dif_neg (show ¬(1 : Fin S8x128x256.rank) ∈ (D1).lhsBatch by decide), dif_pos (show (1 : Fin S8x128x256.rank) ∈ (D1).lhsNonContracting by decide)]
  rfl
theorem d1_l2 (i : S8x128x512.Idx) (c : (D1).contr.Idx) : ((D1).lhsIdx i c 2).val = (c ⟨0, by decide⟩).val :=
  (D1).lhsIdx_val_of_single rfl i c
theorem d1_r0 (i : S8x128x512.Idx) (c : (D1).contr.Idx) : ((D1).rhsIdx i c 0).val = (i 0).val := by
  unfold DotDims.rhsIdx
  rw [dif_pos (show (0 : Fin S8x512x256.rank) ∈ (D1).rhsBatch by decide)]
  rfl
theorem d1_r1 (i : S8x128x512.Idx) (c : (D1).contr.Idx) : ((D1).rhsIdx i c 1).val = (i 2).val := by
  unfold DotDims.rhsIdx
  rw [dif_neg (show ¬(1 : Fin S8x512x256.rank) ∈ (D1).rhsBatch by decide), dif_pos (show (1 : Fin S8x512x256.rank) ∈ (D1).rhsNonContracting by decide)]
  rfl
theorem d1_r2 (i : S8x128x512.Idx) (c : (D1).contr.Idx) : ((D1).rhsIdx i c 2).val = (c ⟨0, by decide⟩).val :=
  (D1).rhsIdx_val_of_single rfl i c

theorem d2_l0 (i : S8x128x256.Idx) (c : (D2).contr.Idx) : ((D2).lhsIdx i c 0).val = (i 0).val := by
  unfold DotDims.lhsIdx
  rw [dif_pos (show (0 : Fin S8x128x512.rank) ∈ (D2).lhsBatch by decide)]
  rfl
theorem d2_l1 (i : S8x128x256.Idx) (c : (D2).contr.Idx) : ((D2).lhsIdx i c 1).val = (i 1).val := by
  unfold DotDims.lhsIdx
  rw [dif_neg (show ¬(1 : Fin S8x128x512.rank) ∈ (D2).lhsBatch by decide), dif_pos (show (1 : Fin S8x128x512.rank) ∈ (D2).lhsNonContracting by decide)]
  rfl
theorem d2_l2 (i : S8x128x256.Idx) (c : (D2).contr.Idx) : ((D2).lhsIdx i c 2).val = (c ⟨0, by decide⟩).val :=
  (D2).lhsIdx_val_of_single rfl i c
theorem d2_r0 (i : S8x128x256.Idx) (c : (D2).contr.Idx) : ((D2).rhsIdx i c 0).val = (i 0).val := by
  unfold DotDims.rhsIdx
  rw [dif_pos (show (0 : Fin S8x512x256.rank) ∈ (D2).rhsBatch by decide)]
  rfl
theorem d2_r1 (i : S8x128x256.Idx) (c : (D2).contr.Idx) : ((D2).rhsIdx i c 1).val = (c ⟨0, by decide⟩).val :=
  (D2).rhsIdx_val_of_single rfl i c
theorem d2_r2 (i : S8x128x256.Idx) (c : (D2).contr.Idx) : ((D2).rhsIdx i c 2).val = (i 2).val := by
  unfold DotDims.rhsIdx
  rw [dif_neg (show ¬(2 : Fin S8x512x256.rank) ∈ (D2).rhsBatch by decide), dif_pos (show (2 : Fin S8x512x256.rank) ∈ (D2).rhsNonContracting by decide)]
  rfl

theorem d3_l0 (i : S1024x256.Idx) (c : (D3).contr.Idx) : ((D3).lhsIdx i c 0).val = (i 0).val := by
  unfold DotDims.lhsIdx
  rw [dif_neg (show ¬(0 : Fin S1024x256.rank) ∈ (D3).lhsBatch by decide), dif_pos (show (0 : Fin S1024x256.rank) ∈ (D3).lhsNonContracting by decide)]
  rfl
theorem d3_l1 (i : S1024x256.Idx) (c : (D3).contr.Idx) : ((D3).lhsIdx i c 1).val = (c ⟨0, by decide⟩).val :=
  (D3).lhsIdx_val_of_single rfl i c
theorem d3_r0 (i : S1024x256.Idx) (c : (D3).contr.Idx) : ((D3).rhsIdx i c 0).val = (c ⟨0, by decide⟩).val :=
  (D3).rhsIdx_val_of_single rfl i c
theorem d3_r1 (i : S1024x256.Idx) (c : (D3).contr.Idx) : ((D3).rhsIdx i c 1).val = (i 1).val := by
  unfold DotDims.rhsIdx
  rw [dif_neg (show ¬(1 : Fin S256x256.rank) ∈ (D3).rhsBatch by decide), dif_pos (show (1 : Fin S256x256.rank) ∈ (D3).rhsNonContracting by decide)]
  rfl

/-- Scores: entry (τ, q, m) contracts the query row (τ, q, ·) with the key row (τ, m, ·). -/
theorem scores_apply (L : FVec Ideal S8x128x256 .bf16) (R : FVec Ideal S8x512x256 .bf16) (τ : Fin 8) (q : Fin 128) (m : Fin 512) :
    matmul D1 none L R (constant S8x128x512 .f32 0x00000000#32) (ix3 τ q m) = ∑ f : Fin 256, L (ix3 τ q f) * R (ix3 τ m f) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : (D1).lhsIdx (ix3 τ q m) ((contrEquiv1 D1 256 rfl rfl).symm k) = ix3 τ q k := funext fun a => Fin.ext (by
    match a with
    | ⟨0, _⟩ => exact d1_l0 _ _
    | ⟨1, _⟩ => exact d1_l1 _ _
    | ⟨2, _⟩ => exact (d1_l2 _ _).trans hk)
  have er : (D1).rhsIdx (ix3 τ q m) ((contrEquiv1 D1 256 rfl rfl).symm k) = ix3 τ m k := funext fun a => Fin.ext (by
    match a with
    | ⟨0, _⟩ => exact d1_r0 _ _
    | ⟨1, _⟩ => exact d1_r1 _ _
    | ⟨2, _⟩ => exact (d1_r2 _ _).trans hk)
  rw [el, er]

/-- Aggregation: entry (τ, q, f) contracts the masked weights (τ, q, ·) with the keys' column (τ, ·, f). -/
theorem aggregate_apply (L : FVec Ideal S8x128x512 .bf16) (R : FVec Ideal S8x512x256 .bf16) (τ : Fin 8) (q : Fin 128) (f : Fin 256) :
    matmul D2 none L R (constant S8x128x256 .f32 0x00000000#32) (ix3 τ q f) = ∑ m : Fin 512, L (ix3 τ q m) * R (ix3 τ m f) := by
  simp only [matmul]
  rw [Ideal.matmul_constant_zero_apply, ← Equiv.sum_comp (contrEquiv1 D2 512 rfl rfl).symm]
  refine Finset.sum_congr rfl fun k _ => ?_
  have hk := contrEquiv1_symm_val D2 512 rfl rfl k
  have el : (D2).lhsIdx (ix3 τ q f) ((contrEquiv1 D2 512 rfl rfl).symm k) = ix3 τ q k := funext fun a => Fin.ext (by
    match a with
    | ⟨0, _⟩ => exact d2_l0 _ _
    | ⟨1, _⟩ => exact d2_l1 _ _
    | ⟨2, _⟩ => exact (d2_l2 _ _).trans hk)
  have er : (D2).rhsIdx (ix3 τ q f) ((contrEquiv1 D2 512 rfl rfl).symm k) = ix3 τ k f := funext fun a => Fin.ext (by
    match a with
    | ⟨0, _⟩ => exact d2_r0 _ _
    | ⟨1, _⟩ => exact (d2_r1 _ _).trans hk
    | ⟨2, _⟩ => exact d2_r2 _ _)
  rw [el, er]

/-- The linear layer: entry (r, o) contracts row r with the weights' column o. -/
theorem linear_apply (L : FVec Ideal S1024x256 .bf16) (R : FVec Ideal S256x256 .bf16) (r : Fin 1024) (o : Fin 256) :
    matmul D3 none L R (constant S1024x256 .f32 0x00000000#32) (ix2 r o) = ∑ f : Fin 256, L (ix2 r f) * R (ix2 f o) := by
  simp only [matmul]
  rw [Ideal.matmul_constant_zero_apply, ← Equiv.sum_comp (contrEquiv1 D3 256 rfl rfl).symm]
  refine Finset.sum_congr rfl fun k _ => ?_
  have hk := contrEquiv1_symm_val D3 256 rfl rfl k
  have el : (D3).lhsIdx (ix2 r o) ((contrEquiv1 D3 256 rfl rfl).symm k) = ix2 r k := funext fun a => Fin.ext (by
    match a with
    | ⟨0, _⟩ => exact d3_l0 _ _
    | ⟨1, _⟩ => exact (d3_l1 _ _).trans hk)
  have er : (D3).rhsIdx (ix2 r o) ((contrEquiv1 D3 256 rfl rfl).symm k) = ix2 k o := funext fun a => Fin.ext (by
    match a with
    | ⟨0, _⟩ => exact (d3_r0 _ _).trans hk
    | ⟨1, _⟩ => exact d3_r1 _ _)
  rw [el, er]

end Dots

/-! ## The two row reductions at an index -/

/-- The row maximum at (τ, q): the fold of max from −∞ over the lanes of row (τ, q). -/
theorem rowMax_apply (s : FVec Ideal S8x128x512 .f32) (h : S8x128x512.Reduces [2] S8x128) (hφ : FKind.Formats .f32)
    (hacc : (0xFF800000#32 : BitVec 32) = FKind.maximumf.neutral .f32 hφ) (τ : Fin 8) (q : Fin 128) :
    multiReduction .maximumf [2] S8x128 s 0xFF800000#32 h hφ hacc (ix2 τ q)
      = (Finset.univ : Finset (Fin 512)).fold max Cert.Spec.nInf (fun m => s (ix3 τ q m)) := by
  refine (Ideal.multiReduction_maximumf_single s _ h hφ hacc (ix2 τ q)).trans ?_
  show (Finset.univ : Finset (Fin 512)).fold max Cert.Spec.nInf (fun m => s (h.lift (ix2 τ q) m)) = _
  exact congrArg (fun g => (Finset.univ : Finset (Fin 512)).fold max Cert.Spec.nInf g)
    (funext fun m => congrArg s (funext fun c => Fin.ext (by match c with | ⟨0, _⟩ => rfl | ⟨1, _⟩ => rfl | ⟨2, _⟩ => rfl)))

/-- The row sum at (τ, q): the sum over the lanes of row (τ, q). -/
theorem rowSum_apply (p : FVec Ideal S8x128x512 .f32) (h : S8x128x512.Reduces [2] S8x128) (hφ : FKind.Formats .f32)
    (hacc : (0x00000000#32 : BitVec 32) = FKind.add.neutral .f32 hφ) (τ : Fin 8) (q : Fin 128) :
    multiReduction .add [2] S8x128 p 0x00000000#32 h hφ hacc (ix2 τ q) = ∑ m : Fin 512, p (ix3 τ q m) := by
  refine (Ideal.multiReduction_add_single p _ h hφ hacc (ix2 τ q)).trans ?_
  show ∑ m : Fin 512, p (h.lift (ix2 τ q) m) = _
  exact Finset.sum_congr rfl fun m _ => congrArg p (funext fun c => Fin.ext (by match c with | ⟨0, _⟩ => rfl | ⟨1, _⟩ => rfl | ⟨2, _⟩ => rfl))

/-! ## The tile, stage by stage -/

section Stages

local notation "D1" => dot_S8x128x256_S8x512x256_S8x128x512_2_2_1_1_0_0
local notation "D2" => dot_S8x128x512_S8x512x256_S8x128x256_2_1_1_2_0_0
local notation "D3" => dot_S1024x256_S256x256_S1024x256_1_0_0_1_n_n

variable (v0 : Vec Ideal S1x512x8x256 .f32) (vq : Vec Ideal S1x128x8x256 .f32) (va : Vec Ideal S128x512 .f32)
  (v4 : Vec Ideal S256x256 .f32)

/-- The keys (and values): the block with the time step in front. -/
def keys : FVec Ideal S8x512x256 .bf16 := k0_pay2 v0

/-- The scaled queries. -/
def queries : FVec Ideal S8x128x256 .bf16 :=
  truncf .bf16 (mulf (transpose S8x128x256 [1, 0, 2] (shapeCast S128x8x256 vq shapeCasts_S1x128x8x256_S128x8x256)
    transposes_S128x8x256_p1_0_2_S8x128x256) (broadcast S8x128x256 (Scalar.ofBits .f32 0x3D800000#32))) bitsLt_bf16_f32

/-- The scores. -/
def scores : FVec Ideal S8x128x512 .f32 :=
  matmul D1 none (queries vq) (keys v0) (constant S8x128x512 .f32 0x00000000#32)

/-- The unnormalised weights. -/
def weights : FVec Ideal S8x128x512 .f32 :=
  exp (subf (scores v0 vq) (broadcastTo S8x128x512 (shapeCast S8x128x1
    (multiReduction .maximumf [2] S8x128 (scores v0 vq) 0xFF800000#32 reduces_S8x128x512_S8x128 (.inl rfl) rfl)
    shapeCasts_S8x128_S8x128x1) broadcasts_S8x128x1_S8x128x512))

/-- The normalised weights: each weight times the reciprocal of its row's sum. -/
def attention : FVec Ideal S8x128x512 .f32 :=
  mulf (weights v0 vq) (broadcastTo S8x128x512 (divf (broadcast S8x128x1 (Scalar.ofBits .f32 0x3F800000#32))
    (shapeCast S8x128x1 (multiReduction .add [2] S8x128 (weights v0 vq) 0x00000000#32 reduces_S8x128x512_S8x128 (.inl rfl) rfl)
      shapeCasts_S8x128_S8x128x1)) broadcasts_S8x128x1_S8x128x512)

/-- The weights masked by the adjacency rows. -/
def masked : FVec Ideal S8x128x512 .bf16 :=
  truncf .bf16 (mulf (broadcastTo S8x128x512 (shapeCast S1x128x512 (shapeCast S1x128x512
    (shapeCast S128x512 va shapeCasts_S128x512_S128x512) shapeCasts_S128x512_S1x128x512) shapeCasts_S1x128x512_S1x128x512)
    broadcasts_S1x128x512_S8x128x512) (attention v0 vq)) bitsLt_bf16_f32

/-- The aggregated features, flattened to [1024, 256]. -/
def hidden : FVec Ideal S1024x256 .bf16 :=
  shapeCast S1024x256 (truncf .bf16 (matmul D2 none (masked v0 vq va) (keys v0) (constant S8x128x256 .f32 0x00000000#32))
    bitsLt_bf16_f32) shapeCasts_S8x128x256_S1024x256

/-- The generated payload that ends at the flattened features is `hidden`. -/
theorem pay4_eq_hidden : k0_pay4 v0 vq va = hidden v0 vq va := rfl

/-- The value one query tile stores. -/
def tile : FVec Ideal S1x128x8x256 .f32 :=
  k0_pay5 (k0_pay3 v4) (hidden v0 vq va) (constant S1024x256 .f32 0x00000000#32)

/-- The query row, key rows, adjacency row and weight column entry (0, q, τ, o) depends on. -/
abbrev qRow (q : Fin 128) (τ : Fin 8) : Fin 256 → EReal := fun f => vq (ix4 (0 : Fin 1) q τ f)
abbrev kRows (τ : Fin 8) : Fin 512 → Fin 256 → EReal := fun m f => v0 (ix4 (0 : Fin 1) m τ f)
abbrev aRow (q : Fin 128) : Fin 512 → EReal := fun m => va (ix2 q m)
abbrev wCol (o : Fin 256) : Fin 256 → EReal := fun f => v4 (ix2 f o)

theorem keys_apply (τ : Fin 8) (m : Fin 512) (f : Fin 256) : keys v0 (ix3 τ m f) = v0 (ix4 (0 : Fin 1) m τ f) := by
  unfold keys k0_pay2
  exact rows_apply v0 _ _ τ m f

theorem queries_apply (τ : Fin 8) (q : Fin 128) (f : Fin 256) :
    queries vq (ix3 τ q f) = vq (ix4 (0 : Fin 1) q τ f) * Cert.Spec.cS := by
  unfold queries
  show transpose S8x128x256 [1, 0, 2] (shapeCast S128x8x256 vq _) _ (ix3 τ q f) * Cert.Spec.cS = _
  rw [rows_apply vq _ _ τ q f]

theorem scores_eq (τ : Fin 8) (q : Fin 128) (m : Fin 512) :
    scores v0 vq (ix3 τ q m) = Cert.Spec.kerScore (qRow vq q τ) (kRows v0 τ) m := by
  unfold scores
  rw [scores_apply]
  unfold Cert.Spec.kerScore
  exact Finset.sum_congr rfl fun f _ => by rw [queries_apply, keys_apply]

theorem weights_eq (τ : Fin 8) (q : Fin 128) (m : Fin 512) :
    weights v0 vq (ix3 τ q m) = Cert.Spec.kerW (qRow vq q τ) (kRows v0 τ) m := by
  unfold weights
  show Ideal.exp (scores v0 vq (ix3 τ q m) - broadcastTo S8x128x512 _ _ (ix3 τ q m)) = _
  rw [spread_apply, column_apply]
  refine (congrArg (fun z => Ideal.exp (scores v0 vq (ix3 τ q m) - z)) (rowMax_apply (scores v0 vq) _ _ _ τ q)).trans ?_
  rw [scores_eq]
  unfold Cert.Spec.kerW
  exact congrArg (fun g => Ideal.exp (_ - (Finset.univ : Finset (Fin 512)).fold max Cert.Spec.nInf g))
    (funext fun m' => scores_eq v0 vq τ q m')

theorem attention_eq (τ : Fin 8) (q : Fin 128) (m : Fin 512) :
    attention v0 vq (ix3 τ q m) = Cert.Spec.kerW (qRow vq q τ) (kRows v0 τ) m
      * Ideal.div Cert.Spec.oneW (∑ m' : Fin 512, Cert.Spec.kerW (qRow vq q τ) (kRows v0 τ) m') := by
  unfold attention
  show weights v0 vq (ix3 τ q m) * broadcastTo S8x128x512 _ _ (ix3 τ q m) = _
  rw [spread_apply, weights_eq]
  show _ * Ideal.div Cert.Spec.oneW (shapeCast S8x128x1 _ _ (ix3 τ q (0 : Fin 1))) = _
  rw [column_apply]
  refine (congrArg (fun z => Cert.Spec.kerW (qRow vq q τ) (kRows v0 τ) m * Ideal.div Cert.Spec.oneW z)
    (rowSum_apply (weights v0 vq) _ _ _ τ q)).trans ?_
  exact congrArg (fun s => _ * Ideal.div Cert.Spec.oneW s) (Finset.sum_congr rfl fun m' _ => weights_eq v0 vq τ q m')

theorem masked_eq (τ : Fin 8) (q : Fin 128) (m : Fin 512) :
    masked v0 vq va (ix3 τ q m) = va (ix2 q m) * (Cert.Spec.kerW (qRow vq q τ) (kRows v0 τ) m
      * Ideal.div Cert.Spec.oneW (∑ m' : Fin 512, Cert.Spec.kerW (qRow vq q τ) (kRows v0 τ) m')) := by
  unfold masked
  show broadcastTo S8x128x512 _ _ (ix3 τ q m) * attention v0 vq (ix3 τ q m) = _
  rw [adj_apply, attention_eq]

theorem hidden_eq (τ : Fin 8) (q : Fin 128) (f : Fin 256) (hr : τ.val * 128 + q.val < 1024) :
    hidden v0 vq va (ix2 (⟨τ.val * 128 + q.val, hr⟩ : Fin 1024) f)
      = ∑ m : Fin 512, (va (ix2 q m) * (Cert.Spec.kerW (qRow vq q τ) (kRows v0 τ) m
          * Ideal.div Cert.Spec.oneW (∑ m' : Fin 512, Cert.Spec.kerW (qRow vq q τ) (kRows v0 τ) m'))) * v0 (ix4 (0 : Fin 1) m τ f) := by
  unfold hidden
  rw [flat_apply _ _ τ q f hr]
  show matmul D2 none (masked v0 vq va) (keys v0) _ (ix3 τ q f) = _
  rw [aggregate_apply]
  exact Finset.sum_congr rfl fun m _ => by rw [masked_eq, keys_apply]

/-- Entry (0, q, τ, o) of the stored tile, in the kernel's arrangement of the four rows it depends on. -/
theorem tile_apply (q : Fin 128) (τ : Fin 8) (o : Fin 256) :
    tile v0 vq va v4 (ix4 (0 : Fin 1) q τ o) = Cert.Spec.kerRow (qRow vq q τ) (kRows v0 τ) (aRow va q) (wCol v4 o) := by
  have hr : τ.val * 128 + q.val < 1024 := by have := τ.isLt; have := q.isLt; omega
  unfold tile k0_pay5
  rw [store_apply, unflat_apply _ _ τ q o hr]
  show max (matmul D3 none (hidden v0 vq va) (k0_pay3 v4) _ (ix2 _ o)) Cert.Spec.zeroW = _
  rw [linear_apply]
  unfold Cert.Spec.kerRow
  refine congrArg (max · Cert.Spec.zeroW) (Finset.sum_congr rfl fun f _ => ?_)
  rw [hidden_eq v0 vq va τ q f hr]
  unfold k0_pay3
  rw [shapeCast_self]
  rfl

end Stages

end Cert.Tile

end
-- ==== Proof.Block.lean ====
/-
  What one grid point leaves in the output's staging buffer.

  At a grid point the body reads the block of x ([1, 512, 8, 256]: 512 nodes, 8 time steps, 256 features), the
  scaled adjacency ([512, 512]) and the transposed weight matrix ([256, 256]) and writes the output block
  ([1, 512, 8, 256]) in four stores of 128 node rows each. Every store's value is the same function
  (`Tile.tile`) of the whole x block, of the 128 query rows the store covers and of the matching 128
  adjacency rows. So the four stores are the four restrictions of ONE function of the output block's index,
  `blockOf`: entry (0, n, τ, o) is `Spec.kerRow` of the query row x[0, n, τ, ·], the key rows x[0, m, τ, ·],
  the adjacency row n and the weight column o. `out_eq`: the staging buffer after the body holds `blockOf`.
-/
import proofs.«116749_j1425929142799_2_alg».proof.Proof.Gen.KernelIdeal.Frame
import proofs.«116749_j1425929142799_2_alg».proof.Proof.Tile
import Idealize.ShloMosaic.Lib.Pipeline.Value
import Idealize.ShloMosaic.Lib.Tactic

set_option maxRecDepth 16384

noncomputable section

namespace Cert.Block

open Idealize.ShloMosaic Idealize.ShloMosaic.TcCoe Idealize.SL.Sem Idealize.ShloMosaic.ValueIdx
open Cert.KernelIdeal Cert.KernelIdeal.Gen

/-- The output block as a function of the three input blocks, entry by entry. -/
def blockOf (x0 : Vec Ideal S1x512x8x256 .f32) (x1 : Vec Ideal S512x512 .f32) (x2 : Vec Ideal S256x256 .f32) :
    Vec Ideal S1x512x8x256 .f32 :=
  fun y => Cert.Spec.kerRow
    (fun f => x0 (ix4 (0 : Fin 1) (⟨(y 1).val, (y 1).isLt⟩ : Fin 512) (⟨(y 2).val, (y 2).isLt⟩ : Fin 8) f))
    (fun m f => x0 (ix4 (0 : Fin 1) m (⟨(y 2).val, (y 2).isLt⟩ : Fin 8) f))
    (fun m => x1 (ix2 (⟨(y 1).val, (y 1).isLt⟩ : Fin 512) m))
    (fun f => x2 (ix2 f (⟨(y 3).val, (y 3).isLt⟩ : Fin 256)))

/-- The tile of the 128 node rows from row `n` on is `blockOf` restricted to those rows. -/
theorem piece_eq (x0 : Vec Ideal S1x512x8x256 .f32) (x1 : Vec Ideal S512x512 .f32) (x2 : Vec Ideal S256x256 .f32) (n : ℕ)
    (inb1 : ∀ a, (![0, n, 0, 0] : Fin 4 → ℕ) a + S1x128x8x256.size a ≤ S1x512x8x256.size a)
    (inb2 : ∀ a, (![n, 0] : Fin 2 → ℕ) a + S128x512.size a ≤ S512x512.size a) (x : S1x128x8x256.Idx) :
    Cert.Tile.tile x0 (View.ld x0 (Rect.unit ![0, n, 0, 0] S1x128x8x256.size inb1))
        (View.ld x1 (Rect.unit ![n, 0] S128x512.size inb2)) x2 x
      = blockOf x0 x1 x2 ((Rect.unit (s := S1x512x8x256) ![0, n, 0, 0] S1x128x8x256.size inb1).emb x) := by
  have h0 : (x 0).val < 1 := (x 0).isLt
  obtain ⟨q, τ, o, rfl⟩ : ∃ (q : Fin 128) (τ : Fin 8) (o : Fin 256), x = ix4 (0 : Fin 1) q τ o :=
    ⟨x 1, x 2, x 3, funext fun a => by
      match a with
      | ⟨0, _⟩ => exact Fin.ext (by show (x 0).val = 0; omega)
      | ⟨1, _⟩ => rfl
      | ⟨2, _⟩ => rfl
      | ⟨3, _⟩ => rfl⟩
  rw [Cert.Tile.tile_apply]
  unfold blockOf
  refine congr (congr (congr (congrArg Cert.Spec.kerRow ?_) ?_) ?_) ?_
  · funext f
    exact congrArg x0 (funext fun a => Fin.ext (by
      match a with
      | ⟨0, _⟩ => rfl
      | ⟨1, _⟩ => rfl
      | ⟨2, _⟩ => rfl
      | ⟨3, _⟩ => show 0 + 1 * f.val = f.val; omega))
  · funext m f
    exact congrArg x0 (funext fun a => Fin.ext (by
      match a with
      | ⟨0, _⟩ => rfl
      | ⟨1, _⟩ => rfl
      | ⟨2, _⟩ => show τ.val = 0 + 1 * τ.val; omega
      | ⟨3, _⟩ => rfl))
  · funext m
    exact congrArg x1 (funext fun a => Fin.ext (by
      match a with
      | ⟨0, _⟩ => rfl
      | ⟨1, _⟩ => show 0 + 1 * m.val = m.val; omega))
  · funext f
    exact congrArg x2 (funext fun a => Fin.ext (by
      match a with
      | ⟨0, _⟩ => rfl
      | ⟨1, _⟩ => show o.val = 0 + 1 * o.val; omega))

/-! The four stores' values are the tile. -/

theorem store0_eq (v0 : Vec Ideal S1x512x8x256 .f32) (vq : Vec Ideal S1x128x8x256 .f32) (va : Vec Ideal S128x512 .f32)
    (v4 : Vec Ideal S256x256 .f32) :
    k0_pay5 (k0_pay3 v4) (k0_pay4 v0 vq va) (constant S1024x256 .f32 0x00000000#32) = Cert.Tile.tile v0 vq va v4 := rfl

theorem store1_eq (v0 : Vec Ideal S1x512x8x256 .f32) (vq : Vec Ideal S1x128x8x256 .f32) (va : Vec Ideal S128x512 .f32)
    (v4 : Vec Ideal S256x256 .f32) :
    k0_pay7 (k0_pay6 (k0_pay2 v0) (k0_pay3 v4) vq va) = Cert.Tile.tile v0 vq va v4 := rfl

theorem store2_eq (v0 : Vec Ideal S1x512x8x256 .f32) (vq : Vec Ideal S1x128x8x256 .f32) (va : Vec Ideal S128x512 .f32)
    (v4 : Vec Ideal S256x256 .f32) :
    k0_pay9 (k0_pay8 (k0_pay2 v0) (k0_pay3 v4) vq va) (FloatOps.ofBits .f32 0x00000000#32) = Cert.Tile.tile v0 vq va v4 := rfl

theorem store3_eq (v0 : Vec Ideal S1x512x8x256 .f32) (vq : Vec Ideal S1x128x8x256 .f32) (va : Vec Ideal S128x512 .f32)
    (v4 : Vec Ideal S256x256 .f32) :
    k0_pay1 (k0_pay10 (k0_pay2 v0) (k0_pay3 v4) vq va) k0_pay11 = Cert.Tile.tile v0 vq va v4 := rfl

theorem hz4 : (![0, 0, 0, 0] : Fin 4 → Nat) = fun _ => 0 := funext fun a => by fin_cases a <;> rfl
theorem hz2 : (![0, 0] : Fin 2 → Nat) = fun _ => 0 := funext fun a => by fin_cases a <;> rfl

/-- After the body, the output's staging buffer holds `blockOf` of the three input blocks: its four stores
    tile the buffer and each stores the restriction of `blockOf` to its 128 node rows. -/
theorem out_eq (c : Dev nD) (i : grid0.Coords) (arg2 : Memref sig .tc .vmem S1x512x8x256 .f32) (harg2 : arg2.IsWhole)
    (arg3 : Memref sig .tc .vmem S512x512 .f32) (harg3 : arg3.IsWhole) (arg4 : Memref sig .tc .vmem S256x256 .f32) (harg4 : arg4.IsWhole)
    (arg5 : Memref sig .tc .vmem S1x512x8x256 .f32) (harg5 : arg5.IsWhole)
    (x0 : Vec Ideal S1x512x8x256 .f32) (x1 : Vec Ideal S512x512 .f32) (x2 : Vec Ideal S256x256 .f32) :
    out0_A_3 (F := Ideal) c i arg2 harg2 arg3 harg3 arg4 harg4 arg5 harg5 x0 x1 x2 = blockOf x0 x1 x2 := by
  unfold out0_A_3
  rw [View.read_writes_eq_canon _ _ _ (cover0_A_3 c i arg2 harg2 arg3 harg3 arg4 harg4 arg5 harg5 x0 x1 x2)]
  funext y
  refine View.canon_apply_of_pieces (blockOf x0 x1 x2) _ ?_ y (cover0_A_3 c i arg2 harg2 arg3 harg3 arg4 harg4 arg5 harg5 x0 x1 x2 y)
  unfold kernelRun0_A
  dsimp only
  sl_unfold_words
  intro p hp
  simp only [List.mem_cons, List.not_mem_nil, or_false] at hp
  rcases hp with rfl | rfl | rfl | rfl
  · intro x
    simp only [View.readAt_eq_ld, harg2.read_unread, harg3.read_unread, harg4.read_unread,
      View.ld_unit_zero (S := S1x512x8x256) hz4, View.ld_unit_zero (S := S256x256) hz2]
    rw [store3_eq]
    exact piece_eq x0 x1 x2 384 _ _ x
  · intro x
    simp only [View.readAt_eq_ld, harg2.read_unread, harg3.read_unread, harg4.read_unread,
      View.ld_unit_zero (S := S1x512x8x256) hz4, View.ld_unit_zero (S := S256x256) hz2]
    rw [store2_eq]
    exact piece_eq x0 x1 x2 256 _ _ x
  · intro x
    simp only [View.readAt_eq_ld, harg2.read_unread, harg3.read_unread, harg4.read_unread,
      View.ld_unit_zero (S := S1x512x8x256) hz4, View.ld_unit_zero (S := S256x256) hz2]
    rw [store1_eq]
    exact piece_eq x0 x1 x2 128 _ _ x
  · intro x
    simp only [View.readAt_eq_ld, harg2.read_unread, harg3.read_unread, harg4.read_unread,
      View.ld_unit_zero (S := S1x512x8x256) hz4, View.ld_unit_zero (S := S256x256) hz2]
    rw [store0_eq]
    exact piece_eq x0 x1 x2 0 _ _ x

end Cert.Block

end
-- ==== Proof.KernelValue.lean ====
/-
  The result array of the idealized kernel, as one function of the arrays its region finds.

  Grid point (b, tt) stages block (b, 0, tt, 0) of x — all 512 nodes, the 8 time steps from 8·tt on, all
  features —, the whole scaled adjacency and the whole transposed weight matrix, and writes back block
  (b, 0, tt, 0) of the result. What it writes back is `Block.blockOf` of the staged blocks; read through the
  blocks' positions this is the restriction to the block of ONE function `wholeOf` of the three arrays:
  entry (b, n, T, o) is `Spec.kerRow` of x[b, n, T, ·], of the rows x[b, m, T, ·], of row n of the scaled
  adjacency and of column o of the transposed weights. The 32 blocks cover the result array (the point
  covering (b, n, T, o) is (b, T / 8)), so after the run the array is `wholeOf` everywhere.
-/
import proofs.«116749_j1425929142799_2_alg».proof.Proof.Gen.KernelIdeal.Value
import proofs.«116749_j1425929142799_2_alg».proof.Proof.Block

set_option maxRecDepth 16384

noncomputable section

namespace Cert.KernelValue

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The result array in the kernel's arrangement, from x, the scaled adjacency and the transposed weights. -/
def wholeOf (A0 : S4x512x64x256.Idx → EReal) (A1 : S512x512.Idx → EReal) (A2 : S256x256.Idx → EReal) :
    S4x512x64x256.Idx → EReal :=
  fun i => Cert.Spec.kerRow
    (fun f => A0 (ix4 (⟨(i 0).val, (i 0).isLt⟩ : Fin 4) (⟨(i 1).val, (i 1).isLt⟩ : Fin 512) (⟨(i 2).val, (i 2).isLt⟩ : Fin 64) f))
    (fun k f => A0 (ix4 (⟨(i 0).val, (i 0).isLt⟩ : Fin 4) k (⟨(i 2).val, (i 2).isLt⟩ : Fin 64) f))
    (fun k => A1 (ix2 (⟨(i 1).val, (i 1).isLt⟩ : Fin 512) k))
    (fun f => A2 (ix2 f (⟨(i 3).val, (i 3).isLt⟩ : Fin 256)))

/-- The printed index maps over the 32 grid points: the x window moves with the output window, the other two
    windows and the output's node and feature axes stay at block 0. -/
theorem idx_facts : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (3 : Fin 4) = 0 :=
  (by decide +kernel : ∀ t : Fin grid0.N, _)

/-- Every (b, tt) is some point's output block. -/
theorem idx_onto : ∀ (b : Fin 4) (tt : Fin 8), ∃ t : Fin cfg0.N, win0_3.index t = ![b.val, 0, tt.val, 0] :=
  (by decide +kernel : ∀ (b : Fin 4) (tt : Fin 8), ∃ t : Fin grid0.N, win0_3.index t = ![b.val, 0, tt.val, 0])

/-- What point `t` writes back is block `t` of `wholeOf` of the arrays the region finds. -/
theorem flushed_eq (c : Dev nD) (t : Fin cfg0.N) :
    (dats m 0 c).flushed 3 t
      = ((cfg0.win 3).blk t).view.read (Elt Ideal) (wholeOf (V m c main_arg0) (V m c main_v1) (V m c main_v2)) := by
  refine (Cert.KernelIdeal.Value.flushed3_A m c t).trans ?_
  refine (congrArg ((cfg0.win 3).cut (grid0.coords t)) (Cert.Block.out_eq c (grid0.coords t) (ms0_0 t) (hs0_0 t) (ms0_1 t) (hs0_1 t)
    (ms0_2 t) (hs0_2 t) (ms0_3 t) (hs0_3 t) (iblk m c 0 t) (iblk m c 1 t) (iblk m c 2 t))).trans ?_
  obtain ⟨e00, e01, e02, e03, e10, e11, e20, e21, e31, e33⟩ := idx_facts t
  funext j
  have hj0 : (j 0).val < 1 := (j 0).isLt
  have hj1 : (j 1).val < 512 := (j 1).isLt
  have hj2 : (j 2).val < 8 := (j 2).isLt
  have hj3 : (j 3).val < 256 := (j 3).isLt
  show Cert.Block.blockOf (iblk m c 0 t) (iblk m c 1 t) (iblk m c 2 t) ((cfg0.win 3).xinj (grid0.coords t) j)
    = wholeOf (V m c main_arg0) (V m c main_v1) (V m c main_v2) (((cfg0.win 3).blk t).view.emb j)
  unfold Cert.Block.blockOf wholeOf
  refine congr (congr (congr (congrArg Cert.Spec.kerRow ?_) ?_) ?_) ?_
  · funext f
    refine congrArg (V m c main_arg0) (funext fun a => Fin.ext ?_)
    match a with
    | ⟨0, _⟩ => show win0_0.index t (0 : Fin 4) * 1 + 1 * 0 = win0_3.index t (0 : Fin 4) * 1 + 1 * (j 0).val; omega
    | ⟨1, _⟩ => show win0_0.index t (1 : Fin 4) * 512 + 1 * (j 1).val = win0_3.index t (1 : Fin 4) * 512 + 1 * (j 1).val; omega
    | ⟨2, _⟩ => show win0_0.index t (2 : Fin 4) * 8 + 1 * (j 2).val = win0_3.index t (2 : Fin 4) * 8 + 1 * (j 2).val; omega
    | ⟨3, _⟩ => show win0_0.index t (3 : Fin 4) * 256 + 1 * f.val = f.val; omega
  · funext k f
    refine congrArg (V m c main_arg0) (funext fun a => Fin.ext ?_)
    match a with
    | ⟨0, _⟩ => show win0_0.index t (0 : Fin 4) * 1 + 1 * 0 = win0_3.index t (0 : Fin 4) * 1 + 1 * (j 0).val; omega
    | ⟨1, _⟩ => show win0_0.index t (1 : Fin 4) * 512 + 1 * k.val = k.val; omega
    | ⟨2, _⟩ => show win0_0.index t (2 : Fin 4) * 8 + 1 * (j 2).val = win0_3.index t (2 : Fin 4) * 8 + 1 * (j 2).val; omega
    | ⟨3, _⟩ => show win0_0.index t (3 : Fin 4) * 256 + 1 * f.val = f.val; omega
  · funext k
    refine congrArg (V m c main_v1) (funext fun a => Fin.ext ?_)
    match a with
    | ⟨0, _⟩ => show win0_1.index t (0 : Fin 2) * 512 + 1 * (j 1).val = win0_3.index t (1 : Fin 4) * 512 + 1 * (j 1).val; omega
    | ⟨1, _⟩ => show win0_1.index t (1 : Fin 2) * 512 + 1 * k.val = k.val; omega
  · funext f
    refine congrArg (V m c main_v2) (funext fun a => Fin.ext ?_)
    match a with
    | ⟨0, _⟩ => show win0_2.index t (0 : Fin 2) * 256 + 1 * f.val = f.val; omega
    | ⟨1, _⟩ => show win0_2.index t (1 : Fin 2) * 256 + 1 * (j 3).val = win0_3.index t (3 : Fin 4) * 256 + 1 * (j 3).val; omega

/-- An index of the result array is in point `t`'s block iff each coordinate is in the block's range on its axis. -/
theorem mem_blk (t : Fin cfg0.N) (i : S4x512x64x256.Idx) :
    i ∈ ((cfg0.win 3).blk t).view.set ↔ ∀ a : Fin 4, win0_3.index t a * S1x512x8x256.size a ≤ (i a).val
      ∧ (i a).val < win0_3.index t a * S1x512x8x256.size a + S1x512x8x256.size a := by
  show i ∈ ((View.whole main_v3).slice (win0_3.rect t)).set ↔ _
  rw [View.set_slice_whole, Rect.mem_set_unit]
  exact Iff.rfl

/-- Every index of the result array is in some point's block: (b, n, T, o) is in the block of point (b, T / 8). -/
theorem cover (i : S4x512x64x256.Idx) : ∃ t : Fin cfg0.N, (cfg0.win 3).flush t = true ∧ i ∈ ((cfg0.win 3).blk t).view.set := by
  have hi0 : (i 0).val < 4 := (i 0).isLt
  have hi1 : (i 1).val < 512 := (i 1).isLt
  have hi2 : (i 2).val < 64 := (i 2).isLt
  have hi3 : (i 3).val < 256 := (i 3).isLt
  obtain ⟨t, ht⟩ := idx_onto ⟨(i 0).val, hi0⟩ ⟨(i 2).val / 8, by omega⟩
  have q0 : win0_3.index t (0 : Fin 4) = (i 0).val := congrFun ht 0
  have q1 : win0_3.index t (1 : Fin 4) = 0 := congrFun ht 1
  have q2 : win0_3.index t (2 : Fin 4) = (i 2).val / 8 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 512 ≤ (i 1).val ∧ (i 1).val < win0_3.index t (1 : Fin 4) * 512 + 512; omega
  | ⟨2, _⟩ => show win0_3.index t (2 : Fin 4) * 8 ≤ (i 2).val ∧ (i 2).val < win0_3.index t (2 : Fin 4) * 8 + 8; omega
  | ⟨3, _⟩ => show win0_3.index t (3 : Fin 4) * 256 ≤ (i 3).val ∧ (i 3).val < win0_3.index t (3 : Fin 4) * 256 + 256; omega

/-- The result array after the run. -/
theorem final (c : Dev nD) :
    (dats m 0 c).arrAt 3 cfg0.N = wholeOf (V m c main_arg0) (V m c main_v1) (V m c main_v2) :=
  (dats m 0 c).arrAt_eq_of_cover 3 (wholeOf (V m c main_arg0) (V m c main_v1) (V m c main_v2))
    (fun t _ => flushed_eq m c t) cover

/-- The run, read: the result array at `wholeOf` of the arrays the region finds, the arguments unchanged. -/
theorem run : θ_run defs (onTc (τ := τ) (main (F := Ideal))) ⟨m, fun _ => 0, ρ⟩ fun r => ∀ c : Dev nD,
      r.2.mem ((c : Thread nD τ).loc main_v3) = wholeOf (V m c main_arg0) (V m c main_v1) (V m c main_v2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelValue

end
-- ==== Proof.RefRow.lean ====
/-
  The reference program read at one output entry.

  The reference folds the time axis into the batch: x : [4,512,64,256] is transposed to [4,64,512,256] and
  flattened row-major to [256,512,256], so that batch B = b·64 + T of the flattened array holds, in row n, the
  feature row x[b, n, T, ·]. On each batch it forms the scores (row n against row m, scaled), takes the row
  maximum from −∞ (and the maximum of that with −∞ once more), exponentiates the differences, sums them from
  zero, divides, scales, multiplies by the adjacency entry, contracts with the rows over m and with the weight
  matrix over f, un-flattens, transposes back and clamps at zero. Read at the entry (b, n, T, o) this is
  Cert.Spec.refRow of the four rows the entry depends on.
-/
import proofs.«116749_j1425929142799_2_alg».proof.Proof.Spec
import proofs.«116749_j1425929142799_2_alg».proof.Proof.Gen.ReferenceIdeal.Read

noncomputable section

namespace Cert.RefRow

open Idealize.ShloMosaic Idealize.ShloMosaic.ValueIdx Cert.ReferenceIdeal Cert.ReferenceIdeal.Gen Cert.ReferenceIdeal.Read

/-- The flattened batch coordinate of (b, T): [4,64] row-major. -/
abbrev bt (b : Fin 4) (T : Fin 64) : Fin 256 := ⟨b.val * 64 + T.val, by have := b.isLt; have := T.isLt; omega⟩

/-- Batch B, row n, feature f of the flattened array, for B = b·64 + T, is x[b, n, T, f]. -/
theorem xf_apply (x : (⟨S4x512x64x256, .f32⟩ : BufTy).Contents (Elt Ideal)) (b : Fin 4) (n : Fin 512) (T : Fin 64)
    (f : Fin 256) : val_main_v1 (F := Ideal) x (ix3 (bt b T) n f) = x (ix4 b n T f) := by
  rw [val_main_v1_apply, val_main_v0_apply]
  refine congrArg x (funext fun a => Fin.ext ?_)
  have hb := b.isLt; have hn := n.isLt; have hT := T.isLt; have hf := f.isLt
  match a with
  | ⟨0, _⟩ => show (((b.val * 64 + T.val) * 512 + n.val) * 256 + f.val) / 8388608 = b.val; omega
  | ⟨1, _⟩ => show (((b.val * 64 + T.val) * 512 + n.val) * 256 + f.val) / 256 % 512 = n.val; omega
  | ⟨2, _⟩ => show (((b.val * 64 + T.val) * 512 + n.val) * 256 + f.val) / 131072 % 64 = T.val; omega
  | ⟨3, _⟩ => show (((b.val * 64 + T.val) * 512 + n.val) * 256 + f.val) % 256 = f.val; omega

/-- Row n of batch B of the flattened array. -/
abbrev qRow (x : (⟨S4x512x64x256, .f32⟩ : BufTy).Contents (Elt Ideal)) (B : Fin 256) (n : Fin 512) : Fin 256 → EReal :=
  fun f => val_main_v1 (F := Ideal) x (ix3 B n f)

/-- All rows of batch B of the flattened array. -/
abbrev kRows (x : (⟨S4x512x64x256, .f32⟩ : BufTy).Contents (Elt Ideal)) (B : Fin 256) : Fin 512 → Fin 256 → EReal :=
  fun m f => val_main_v1 (F := Ideal) x (ix3 B m f)

/-! ## The composed index maps at coordinates -/

theorem lidx2 (B : Fin 256) (n m : Fin 512) (k : Fin 256) : lidx_main_v2 (ix3 B n m) k = ix3 B n k :=
  funext fun a => by match a with | ⟨0, _⟩ => rfl | ⟨1, _⟩ => rfl | ⟨2, _⟩ => rfl

theorem ridx2 (B : Fin 256) (n m : Fin 512) (k : Fin 256) : ridx_main_v2 (ix3 B n m) k = ix3 B m k :=
  funext fun a => by match a with | ⟨0, _⟩ => rfl | ⟨1, _⟩ => rfl | ⟨2, _⟩ => rfl

/-- The score of row n against row m of batch B. -/
theorem score_apply (x : (⟨S4x512x64x256, .f32⟩ : BufTy).Contents (Elt Ideal)) (B : Fin 256) (n m : Fin 512) :
    val_main_v4 (F := Ideal) x (ix3 B n m) = Cert.Spec.refScore (qRow x B n) (kRows x B) m := by
  rw [val_main_v4_apply, val_main_v2_apply, val_main_v3_apply, val_main_cst_apply]
  unfold Cert.Spec.refScore
  refine congrArg (· * Cert.Spec.cS) (Finset.sum_congr rfl fun k _ => ?_)
  rw [lidx2, ridx2]

/-! ## The row maximum -/

/-- The reduced index (B, n) with key m put back on the dropped axis is (B, n, m). -/
theorem lift_rowMax (h : S256x512x512.Reduces [2] S256x512) (B : Fin 256) (n : Fin 512) (m : Fin 512) :
    h.lift (ix2 B n) m = ix3 B n m :=
  funext fun a => Fin.ext (by match a with | ⟨0, _⟩ => rfl | ⟨1, _⟩ => rfl | ⟨2, _⟩ => rfl)

/-- The maximum over the keys, from −∞, of the scores of row n: the reduce with a maximum body over the last
    axis is the fold of max over that axis's coordinates. -/
theorem rowMax_apply (x : (⟨S4x512x64x256, .f32⟩ : BufTy).Contents (Elt Ideal)) (B : Fin 256) (n : Fin 512) :
    val_main_v5 (F := Ideal) x (ix2 B n)
      = (Finset.univ : Finset (Fin 512)).fold max Cert.Spec.nInf (Cert.Spec.refScore (qRow x B n) (kRows x B)) := by
  have h : S256x512x512.Reduces [2] S256x512 := by decide
  unfold val_main_v5
  refine (Host.reduce_eq_fold_single (FloatOps.maximumf (F := Ideal) (φ := .f32)) (val_main_v4 (F := Ideal) x)
    (val_main_cst_0 (F := Ideal)) reducesTo_S256x512x512_S256x512_d2 h h_S_ (ix2 B n)).trans ?_
  have hf : (val_main_v4 (F := Ideal) x ∘ h.lift (ix2 B n))
      = Cert.Spec.refScore (qRow x B n) (kRows x B) := funext fun (m : Fin 512) => by
    show val_main_v4 (F := Ideal) x (h.lift (ix2 B n) m) = _
    rw [lift_rowMax h B n m, score_apply]
  exact congrArg (fun g => Finset.fold max Cert.Spec.nInf g (Finset.univ : Finset (Fin 512))) hf

/-- The row maximum, compared once more with −∞. -/
theorem rowMax'_apply (x : (⟨S4x512x64x256, .f32⟩ : BufTy).Contents (Elt Ideal)) (B : Fin 256) (n : Fin 512) :
    val_main_v7 (F := Ideal) x (ix2 B n)
      = max Cert.Spec.nInf ((Finset.univ : Finset (Fin 512)).fold max Cert.Spec.nInf
          (Cert.Spec.refScore (qRow x B n) (kRows x B))) := by
  rw [val_main_v7_apply, val_main_v6_apply, val_main_cst_1_apply, rowMax_apply]
  rfl

/-! ## The weights and their sum -/

theorem idx8_9 (B : Fin 256) (n m : Fin 512) : idx_main_v8 (idx_main_v9 (ix3 B n m)) = ix2 B n :=
  funext fun a => by match a with | ⟨0, _⟩ => rfl | ⟨1, _⟩ => rfl

/-- The unnormalised weight of key m for row n: exp of the score less the row maximum. -/
theorem weight_apply (x : (⟨S4x512x64x256, .f32⟩ : BufTy).Contents (Elt Ideal)) (B : Fin 256) (n m : Fin 512) :
    val_main_v11 (F := Ideal) x (ix3 B n m) = Cert.Spec.refW (qRow x B n) (kRows x B) m := by
  rw [val_main_v11_apply, val_main_v10_apply, score_apply, val_main_v9_apply, val_main_v8_apply, idx8_9, rowMax'_apply]
  rfl

theorem idx12 (B : Fin 256) (n : Fin 512) (k : Fin 512) : idx_main_v12 (ix2 B n) k = ix3 B n k :=
  funext fun a => by match a with | ⟨0, _⟩ => rfl | ⟨1, _⟩ => rfl | ⟨2, _⟩ => rfl

/-- The weights of row n summed over the keys, from the zero the program writes. -/
theorem weightSum_apply (x : (⟨S4x512x64x256, .f32⟩ : BufTy).Contents (Elt Ideal)) (B : Fin 256) (n : Fin 512) :
    val_main_v12 (F := Ideal) x (ix2 B n)
      = Cert.Spec.zeroW + ∑ m' : Fin 512, Cert.Spec.refW (qRow x B n) (kRows x B) m' := by
  rw [val_main_v12_apply]
  refine congrArg (Cert.Spec.zeroW + ·) (Finset.sum_congr rfl fun k _ => ?_)
  rw [idx12, weight_apply]

theorem idx13_14 (B : Fin 256) (n m : Fin 512) : idx_main_v13 (idx_main_v14 (ix3 B n m)) = ix2 B n :=
  funext fun a => by match a with | ⟨0, _⟩ => rfl | ⟨1, _⟩ => rfl

/-- The attention entry: the weight over the weights' sum, scaled. -/
theorem att_apply (x : (⟨S4x512x64x256, .f32⟩ : BufTy).Contents (Elt Ideal)) (B : Fin 256) (n m : Fin 512) :
    val_main_v17 (F := Ideal) x (ix3 B n m)
      = Ideal.div (Cert.Spec.refW (qRow x B n) (kRows x B) m)
          (Cert.Spec.zeroW + ∑ m' : Fin 512, Cert.Spec.refW (qRow x B n) (kRows x B) m') * Cert.Spec.cS := by
  rw [val_main_v17_apply, val_main_v15_apply, weight_apply, val_main_v14_apply, val_main_v13_apply, idx13_14,
    weightSum_apply, val_main_v16_apply, val_main_cst_3_apply]
  rfl

/-! ## The adjacency, the two contractions -/

theorem idx18_19 (B : Fin 256) (n m : Fin 512) : idx_main_v18 (idx_main_v19 (ix3 B n m)) = ix2 n m :=
  funext fun a => by match a with | ⟨0, _⟩ => rfl | ⟨1, _⟩ => rfl

/-- The adjacency entry (the same for every batch) times the attention entry. -/
theorem masked_apply (x : (⟨S4x512x64x256, .f32⟩ : BufTy).Contents (Elt Ideal))
    (a : (⟨S512x512, .f32⟩ : BufTy).Contents (Elt Ideal)) (B : Fin 256) (n m : Fin 512) :
    val_main_v20 (F := Ideal) x a (ix3 B n m)
      = a (ix2 n m) * (Ideal.div (Cert.Spec.refW (qRow x B n) (kRows x B) m)
          (Cert.Spec.zeroW + ∑ m' : Fin 512, Cert.Spec.refW (qRow x B n) (kRows x B) m') * Cert.Spec.cS) := by
  rw [val_main_v20_apply, val_main_v19_apply, val_main_v18_apply, idx18_19, att_apply]
  rfl

theorem lidx21 (B : Fin 256) (n : Fin 512) (f : Fin 256) (m : Fin 512) : lidx_main_v21 (ix3 B n f) m = ix3 B n m :=
  funext fun a => by match a with | ⟨0, _⟩ => rfl | ⟨1, _⟩ => rfl | ⟨2, _⟩ => rfl

theorem ridx21 (B : Fin 256) (n : Fin 512) (f : Fin 256) (m : Fin 512) : ridx_main_v21 (ix3 B n f) m = ix3 B m f :=
  funext fun a => by match a with | ⟨0, _⟩ => rfl | ⟨1, _⟩ => rfl | ⟨2, _⟩ => rfl

/-- The aggregation over the keys. -/
theorem agg_apply (x : (⟨S4x512x64x256, .f32⟩ : BufTy).Contents (Elt Ideal))
    (a : (⟨S512x512, .f32⟩ : BufTy).Contents (Elt Ideal)) (B : Fin 256) (n : Fin 512) (f : Fin 256) :
    val_main_v21 (F := Ideal) x a (ix3 B n f)
      = ∑ m : Fin 512, (a (ix2 n m) * (Ideal.div (Cert.Spec.refW (qRow x B n) (kRows x B) m)
          (Cert.Spec.zeroW + ∑ m' : Fin 512, Cert.Spec.refW (qRow x B n) (kRows x B) m') * Cert.Spec.cS))
            * kRows x B m f := by
  rw [val_main_v21_apply]
  refine Finset.sum_congr rfl fun m _ => ?_
  rw [lidx21, ridx21, masked_apply]

theorem lidx22 (B : Fin 256) (n : Fin 512) (o : Fin 256) (f : Fin 256) : lidx_main_v22 (ix3 B n o) f = ix3 B n f :=
  funext fun a => by match a with | ⟨0, _⟩ => rfl | ⟨1, _⟩ => rfl | ⟨2, _⟩ => rfl

theorem ridx22 (B : Fin 256) (n : Fin 512) (o : Fin 256) (f : Fin 256) : ridx_main_v22 (ix3 B n o) f = ix2 o f :=
  funext fun a => by match a with | ⟨0, _⟩ => rfl | ⟨1, _⟩ => rfl

/-- The linear layer: the aggregated row against row o of the weight matrix. -/
theorem linear_apply (x : (⟨S4x512x64x256, .f32⟩ : BufTy).Contents (Elt Ideal))
    (a : (⟨S512x512, .f32⟩ : BufTy).Contents (Elt Ideal)) (th : (⟨S256x256, .f32⟩ : BufTy).Contents (Elt Ideal))
    (B : Fin 256) (n : Fin 512) (o : Fin 256) :
    val_main_v22 (F := Ideal) x a th (ix3 B n o)
      = ∑ f : Fin 256, (∑ m : Fin 512, (a (ix2 n m) * (Ideal.div (Cert.Spec.refW (qRow x B n) (kRows x B) m)
          (Cert.Spec.zeroW + ∑ m' : Fin 512, Cert.Spec.refW (qRow x B n) (kRows x B) m') * Cert.Spec.cS))
            * kRows x B m f) * th (ix2 o f) := by
  rw [val_main_v22_apply]
  refine Finset.sum_congr rfl fun f _ => ?_
  rw [lidx22, ridx22, agg_apply]

/-! ## Back to [4,512,64,256], and the clamp -/

/-- Entry (b, n, T, o) of the result is read from batch b·64 + T, row n, column o of the flattened one. -/
theorem idx23_24 (b : Fin 4) (n : Fin 512) (T : Fin 64) (o : Fin 256) :
    idx_main_v23 (idx_main_v24 (ix4 b n T o)) = ix3 (bt b T) n o := by
  refine funext fun a => Fin.ext ?_
  have hb := b.isLt; have hn := n.isLt; have hT := T.isLt; have ho := o.isLt
  match a with
  | ⟨0, _⟩ => show (((b.val * 64 + T.val) * 512 + n.val) * 256 + o.val) / 131072 = b.val * 64 + T.val; omega
  | ⟨1, _⟩ => show (((b.val * 64 + T.val) * 512 + n.val) * 256 + o.val) / 256 % 512 = n.val; omega
  | ⟨2, _⟩ => show (((b.val * 64 + T.val) * 512 + n.val) * 256 + o.val) % 256 = o.val; omega

/-- The reference at the entry (b, n, T, o), as the specification's arrangement of the four rows it depends on:
    the query row x[b, n, T, ·], the key rows x[b, ·, T, ·], the adjacency row adj[n, ·], the weight row theta_w[o, ·]. -/
theorem ref_apply (x : (⟨S4x512x64x256, .f32⟩ : BufTy).Contents (Elt Ideal))
    (a : (⟨S512x512, .f32⟩ : BufTy).Contents (Elt Ideal)) (th : (⟨S256x256, .f32⟩ : BufTy).Contents (Elt Ideal))
    (b : Fin 4) (n : Fin 512) (T : Fin 64) (o : Fin 256) :
    val_main_v25 (F := Ideal) x a th (ix4 b n T o)
      = Cert.Spec.refRow (fun f => x (ix4 b n T f)) (fun m f => x (ix4 b m T f)) (fun m => a (ix2 n m))
          (fun f => th (ix2 o f)) := by
  have hq : qRow x (bt b T) n = fun f => x (ix4 b n T f) := funext fun f => xf_apply x b n T f
  have hk : kRows x (bt b T) = fun m f => x (ix4 b m T f) := funext fun m => funext fun f => xf_apply x b m T f
  rw [val_main_v25_apply, val_main_v24_apply, val_main_v23_apply, idx23_24, linear_apply, val_main_call0_v0_apply,
    val_main_call0_cst_apply, hq, hk]
  rfl

end Cert.RefRow

end
-- ==== Proof.HostPrefix.lean ====
/-
  The two arrays the program computes before its region, read at an index.

  Before the region runs, four operations prepare two of its operands: the scale 2⁻⁴ is written as a scalar and
  broadcast to [512,512]; the adjacency matrix is multiplied by it entry by entry; and the weight matrix is
  transposed. So the region finds, in place of the adjacency, adj[n, k] · 2⁻⁴ at (n, k), and, in place of the
  weights, theta_w[o, f] at (f, o). The contents of a buffer after a straight line of such operations is the
  composition of their functions over the launch contents; reading that composition at an index is entrywise.
-/
import proofs.«116749_j1425929142799_2_alg».proof.Proof.Gen.KernelIdeal.Frame
import proofs.«116749_j1425929142799_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.HostPrefix

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ) (c : Dev nD)

/-- The scaled adjacency as one array: the launch adjacency times the broadcast scale. -/
theorem v1_eq : (V m c main_v1 : S512x512.Idx → EReal)
    = mulf (m ((c : Thread nD τ).loc main_arg1))
        (broadcastInDim S512x512 ![] bcast_S_S512x512 (constant (F := Ideal) S_ .f32 0x3D800000#32)) := by
  dsimp only [Gen.V, Gen.hostOps0]; after_results

/-- Entry (n, k) of the scaled adjacency is adj[n, k] · 2⁻⁴ (the product of extended reals, named in full because the
    entry's type is an extended real only after the buffer's element type is computed). -/
theorem v1_apply (n k : Fin 512) :
    V m c main_v1 (ix2 n k)
      = HMul.hMul (α := EReal) (β := EReal) (γ := EReal) (m ((c : Thread nD τ).loc main_arg1) (ix2 n k)) Cert.Spec.cS :=
  (congrFun (v1_eq m c) (ix2 n k)).trans rfl

/-- Row n of the launch adjacency on core c, as a row of extended reals. -/
abbrev adjRow (n : Fin 512) : Fin 512 → EReal := fun k => m ((c : Thread nD τ).loc main_arg1) (ix2 n k)

/-- Row n of the scaled adjacency is row n of the launch adjacency, each entry times 2⁻⁴. -/
theorem v1_row (n : Fin 512) :
    (fun k : Fin 512 => (V m c main_v1 (ix2 n k) : EReal)) = fun k => adjRow m c n k * Cert.Spec.cS :=
  funext fun k => v1_apply m c n k

/-- The transposed weights as one array. -/
theorem v2_eq : (V m c main_v2 : S256x256.Idx → EReal)
    = transpose S256x256 [1, 0] (m ((c : Thread nD τ).loc main_arg2)) transposes_S256x256_S256x256_1_0 := by
  dsimp only [Gen.V, Gen.hostOps0]; after_results

/-- Entry (f, o) of the transposed weights is theta_w[o, f]. -/
theorem v2_apply (f o : Fin 256) :
    V m c main_v2 (ix2 f o) = m ((c : Thread nD τ).loc main_arg2) (ix2 o f) :=
  (congrFun (v2_eq m c) (ix2 f o)).trans (transpose_ix2_apply _ _ f o)

end Cert.HostPrefix

end
-- ==== Proof.Bridge.lean ====
/-
  The kernel's result array and the reference's are one function of the arguments.

  The kernel's region finds x as launched, the adjacency scaled by 2⁻⁴ and the weight matrix transposed
  (its @main prepares the last two). Entry (b, n, T, o) of its result is therefore `Spec.kerRow` of
  x[b, n, T, ·], of the rows x[b, m, T, ·], of adj[n, ·] · 2⁻⁴ and of theta_w[o, ·]; the reference's entry is
  `Spec.refRow` of the same four rows with the adjacency row unscaled. On finite x the two agree
  (`Spec.kerRow_eq_refRow`).
-/
import proofs.«116749_j1425929142799_2_alg».proof.Proof.KernelValue
import proofs.«116749_j1425929142799_2_alg».proof.Proof.RefRow
import proofs.«116749_j1425929142799_2_alg».proof.Proof.HostPrefix

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- At coordinates: the kernel's entry is the reference's, when x is finite. -/
theorem whole_eq_ref_at (hx : ∀ i : S4x512x64x256.Idx, ∃ r : ℝ, m ((c : Thread nD τ).loc main_arg0) i = (r : EReal))
    (b : Fin 4) (n : Fin 512) (T : Fin 64) (o : Fin 256) :
    Cert.KernelValue.wholeOf (V m c main_arg0) (V m c main_v1) (V m c main_v2) (ix4 b n T o)
      = Cert.ReferenceIdeal.Read.val_main_v25 (F := Ideal) (m ((c : Thread nD τ).loc main_arg0))
          (m ((c : Thread nD τ).loc main_arg1)) (m ((c : Thread nD τ).loc main_arg2)) (ix4 b n T o) := by
  rw [Cert.RefRow.ref_apply, ← Cert.Spec.kerRow_eq_refRow _ _ _ _ (fun f => hx _) (fun k f => hx _)]
  show Cert.Spec.kerRow (fun f => V m c main_arg0 (ix4 b n T f)) (fun k f => V m c main_arg0 (ix4 b k T f))
    (fun k => V m c main_v1 (ix2 n k)) (fun f => V m c main_v2 (ix2 f o)) = _
  refine congr (congr (congr (congrArg Cert.Spec.kerRow ?_) ?_) ?_) ?_
  · funext f; exact congrFun (V_main_arg0 m c) _
  · funext k f; exact congrFun (V_main_arg0 m c) _
  · funext k; exact Cert.HostPrefix.v1_apply m c n k
  · funext f; exact Cert.HostPrefix.v2_apply m c f o

/-- As arrays. -/
theorem whole_eq_ref (hx : ∀ i : S4x512x64x256.Idx, ∃ r : ℝ, m ((c : Thread nD τ).loc main_arg0) i = (r : EReal)) :
    Cert.KernelValue.wholeOf (V m c main_arg0) (V m c main_v1) (V m c main_v2)
      = Cert.ReferenceIdeal.Read.val_main_v25 (F := Ideal) (m ((c : Thread nD τ).loc main_arg0))
          (m ((c : Thread nD τ).loc main_arg1)) (m ((c : Thread nD τ).loc main_arg2)) := by
  funext i
  obtain ⟨b, n, T, o, rfl⟩ : ∃ (b : Fin 4) (n : Fin 512) (T : Fin 64) (o : Fin 256), i = ix4 b n T o :=
    ⟨i 0, i 1, i 2, i 3, eq_ix4 i⟩
  exact whole_eq_ref_at m c hx b n T o

end Cert.Bridge

end
-- ==== Proof.Finite.lean ====
/-
  The entries of x are real numbers.

  The precondition is the conjunction of three statements of the same form, one per argument array: every entry's
  absolute value is below +∞. Each is printed as a reduction by "and", over every axis, of the entrywise comparison,
  started from 1; the whole is 1. A conjunction that is 1 has both conjuncts 1, a reduction by "and" into a single
  entry that is 1 met only 1s, and an extended real v with max v (−v) < +∞ is neither −∞ nor +∞: it is a real.
  Only the first conjunct, about x, is read here.
-/
import proofs.«116749_j1425929142799_2_alg».proof.Defs
import Idealize.ShloMosaic.Lib.ReduceAll
import Idealize.ShloMosaic.Lib.ValueIdx

noncomputable section

namespace Cert.Finite

open Idealize.ShloMosaic Idealize.SL.Sem

/-- The rank-zero shape has one index. -/
instance : Subsingleton Cert.Pre_finite_inputs.S_.Idx := ⟨fun a b => funext fun d => d.elim0⟩

/-- The word 0x7F800000 is +∞. -/
theorem pInf_eq : Ideal.ofBits .f32 0x7F800000#32 = (⊤ : EReal) := by
  simp [Ideal.ofBits, Ideal.ieee]

/-- An extended real whose absolute value compares below +∞ is a real. -/
theorem real_of_abs_lt (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  have h' : BitVec.ofBool (decide (max v (-v) < Ideal.ofBits .f32 0x7F800000#32)) = 1#1 := h
  rw [pInf_eq] at h'
  induction v using EReal.rec with
  | bot => simp at h'
  | coe r => exact ⟨r, rfl⟩
  | top => simp at h'

theorem x_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S4x512x64x256.Idx) :
    ∃ r : ℝ, m ((c.tc : Thread Cert.KernelIdeal.nD Cert.KernelIdeal.τ).loc Cert.KernelIdeal.main_arg0) i = (r : EReal) := by
  have e := congrFun (hpre c) ValueIdx.ix0
  dsimp only [Cert.Pre_finite_inputs.fn] at e
  have e1 := (IntOp.andi_eq_one.1 e).1
  have e2 := (IntOp.andi_eq_one.1 e1).1
  have e3 := Host.reduce_andi_all _ _ _ _ _ e2 i
  exact real_of_abs_lt _ e3

end Cert.Finite

end
-- ==== Proof.lean ====
/-
  Masked self-attention over 512 nodes followed by a linear layer and a clamp at zero: a kernel against its reference.

  For x : [4, 512, 64, 256] (batch, node, time step, feature), adj : [512, 512] and theta_w : [256, 256], entry
  (b, n, T, o) of the result is

      max ( Σ_f ( Σ_m adj[n, m] · softmax_m( x[b, n, T, ·]·x[b, m, T, ·] / 16 ) / 16 · x[b, m, T, f] ) · theta_w[o, f], 0 ).

  The kernel works on blocks (b, all nodes, 8 time steps, all features), four tiles of 128 query nodes per block; it
  scales the queries by 1/16 before the scores' contraction, multiplies the weights by the reciprocal of their sum, and
  is handed the adjacency already scaled by 1/16 and the weight matrix transposed. The reference folds the time axis
  into the batch, scales the contracted scores, divides by the sum and scales the quotient. On the extended reals the
  two agree for finite x: the scale is a nonnegative real, which moves across a finite sum at any summands, and the
  weights' sum is nonzero because a key of maximal score has weight exp 0 (`Spec.kerRow_eq_refRow`).

  The modules: `Spec` (one entry as a function of four rows, in both arrangements, and their agreement), `Tile` (one
  query tile of the body read at an index), `Block` (the four stores of a grid point are one function of the block),
  `KernelValue` (the result array after the run), `HostPrefix` (the scaled adjacency and the transposed weights the
  region finds), `RefRow` (the reference read at an index), `Finite` (x is finite under the precondition), `Bridge`
  (the two result arrays are equal). The frames and the two runs are the generated ones.
-/
import proofs.«116749_j1425929142799_2_alg».proof.Defs
import proofs.«116749_j1425929142799_2_alg».proof.Proof.Gen.Kernel
import proofs.«116749_j1425929142799_2_alg».proof.Proof.Gen.Kernel.Skeleton
import proofs.«116749_j1425929142799_2_alg».proof.Proof.Gen.Kernel.Launch
import proofs.«116749_j1425929142799_2_alg».proof.Proof.Gen.Kernel.Points
import proofs.«116749_j1425929142799_2_alg».proof.Proof.Gen.Kernel.Frame
import proofs.«116749_j1425929142799_2_alg».proof.Proof.Gen.KernelIdeal
import proofs.«116749_j1425929142799_2_alg».proof.Proof.Gen.KernelIdeal.Skeleton
import proofs.«116749_j1425929142799_2_alg».proof.Proof.Gen.KernelIdeal.Launch
import proofs.«116749_j1425929142799_2_alg».proof.Proof.Gen.KernelIdeal.Points
import proofs.«116749_j1425929142799_2_alg».proof.Proof.Gen.KernelIdeal.Frame
import proofs.«116749_j1425929142799_2_alg».proof.Proof.Gen.ReferenceIdeal
import proofs.«116749_j1425929142799_2_alg».proof.Proof.Gen.Pre_finite_inputs
import proofs.«116749_j1425929142799_2_alg».proof.Proof.Gen.KernelIdeal.Value
import proofs.«116749_j1425929142799_2_alg».proof.Proof.Gen.ReferenceIdeal.Run
import proofs.«116749_j1425929142799_2_alg».proof.Proof.Gen.ReferenceIdeal.Read
import proofs.«116749_j1425929142799_2_alg».proof.Proof.Bridge
import proofs.«116749_j1425929142799_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result array: the kernel's run ends at `KernelValue.wholeOf` of the arrays
    its region finds, the reference's at its own term of the arguments, and on finite x the two are equal. -/
theorem algebraic : Cert.algebraic_KernelIdeal_ReferenceIdeal := by
  intro m ρ m' ρ' hpre hagree
  refine ⟨fun c => Cert.KernelValue.wholeOf (Cert.KernelIdeal.Gen.V m c Cert.KernelIdeal.main_arg0)
    (Cert.KernelIdeal.Gen.V m c Cert.KernelIdeal.main_v1) (Cert.KernelIdeal.Gen.V m c Cert.KernelIdeal.main_v2),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v25_eq]
  exact (Cert.Bridge.whole_eq_ref m c (fun i => Cert.Finite.x_real m hpre c i)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
